-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S524288 : Shape := ⟨1, ![524288]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x64 : Shape := ⟨2, ![16384, 64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg6 : FVec F S64 .f32) (main_arg7 : FVec F S16384x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16384x64 .f32 := Host.absf main_arg7
  let main_cst_8 : FVec F S_ .f32 := constant S_ .f32 0x7F800000#32
  let main_v25 : FVec F S16384x64 .f32 := broadcastInDim S16384x64 ![] bcast_S_S16384x64 main_cst_8
  let main_v26 : IVec S16384x64 1 := cmpf .olt main_v24 main_v25
  let main_c_9 : IVec S_ 1 := constantI S_ 1 1#1
  let main_v27 : IVec S_ 1 := (fun x v => Host.reduce IntOp.andi x v reducesTo_S16384x64_S_d0_1 h_S_) main_v26 main_c_9
  let main_v28 : IVec S_ 1 := andi main_v23 main_v27
  main_v28

def fn {F : FTy → Type} [FloatOps F] (main_arg0 : FVec F S16384x512 .f32) (main_arg1 : IVec S524288 32) (main_arg2 : IVec S524288 32) (main_arg3 : FVec F S512x256 .f32) (main_arg4 : FVec F S256 .f32) (main_arg5 : FVec F S256x64 .f32) (main_arg6 : FVec F S64 .f32) (main_arg7 : FVec F S16384x64 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_v13 main_v16
-- ==== Kernel.lean ====
abbrev S16384x512 : Shape := ⟨2, ![16384, 512]⟩
abbrev S524288 : Shape := ⟨1, ![524288]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x64 : Shape := ⟨2, ![16384, 64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x256 : Shape := ⟨2, ![16384, 256]⟩
abbrev S2048x512 : Shape := ⟨2, ![2048, 512]⟩
abbrev S2048x256 : Shape := ⟨2, ![2048, 256]⟩
abbrev S524288x256 : Shape := ⟨2, ![524288, 256]⟩
abbrev S1x256 : Shape := ⟨2, ![1, 256]⟩
abbrev S2048x64 : Shape := ⟨2, ![2048, 64]⟩
abbrev S524288x64 : Shape := ⟨2, ![524288, 64]⟩
abbrev S1x64 : Shape := ⟨2, ![1, 64]⟩
abbrev S16384x16384 : Shape := ⟨2, ![16384, 16384]⟩
abbrev S2048x2048 : Shape := ⟨2, ![2048, 2048]⟩

abbrev nBuf : Space → Nat
  | .hbm => 81
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S16384x64, .f32⟩
  | .hbm, ⟨8, _⟩ => ⟨S_, .f32⟩
  | .hbm, ⟨9, _⟩ => ⟨S524288, .f32⟩
  | .hbm, ⟨10, _⟩ => ⟨S_, .f32⟩
  | .hbm, ⟨11, _⟩ => ⟨S16384, .f32⟩
  | .hbm, ⟨12, _⟩ => ⟨S524288x1, .i32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S524288x1, .i32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x512, .f32⟩
  | .hbm, ⟨32, _⟩ => ⟨S16384x512, .f32⟩
  | .hbm, ⟨33, _⟩ => ⟨S16384x256, .f32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S524288x1, .i32⟩
  | .hbm, ⟨42, _⟩ => ⟨S524288x256, .f32⟩
  | .hbm, ⟨43, _⟩ => ⟨S_, .f32⟩
  | .hbm, ⟨44, _⟩ => ⟨S16384x256, .f32⟩
  | .hbm, ⟨45, _⟩ => ⟨S524288x1, .i32⟩
  | .hbm, ⟨46, _⟩ => ⟨S16384x256, .f32⟩
  | .hbm, ⟨47, _⟩ => ⟨S16384x1, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S16384x256, .f32⟩
  | .hbm, ⟨52, _⟩ => ⟨S16384x256, .f32⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S16384x1, .f32⟩
  | .hbm, ⟨57, _⟩ => ⟨S16384x256, .f32⟩
  | .hbm, ⟨58, _⟩ => ⟨S16384x256, .f32⟩
  | .hbm, ⟨59, _⟩ => ⟨S16384x64, .f32⟩
  | .hbm, ⟨60, _⟩ => ⟨S_, .i32⟩
  | .hbm, ⟨61, _⟩ => ⟨S524288, .i32⟩
  | .hbm, ⟨62, _⟩ => ⟨S524288, .i1⟩
  | .hbm, ⟨63, _⟩ => ⟨S_, .i32⟩
  | .hbm, ⟨64, _⟩ => ⟨S524288, .i32⟩
  | .hbm, ⟨65, _⟩ => ⟨S524288, .i32⟩
  | .hbm, ⟨66, _⟩ => ⟨S524288, .i32⟩
  | .hbm, ⟨67, _⟩ => ⟨S524288x1, .i32⟩
  | .hbm, ⟨68, _⟩ => ⟨S524288x64, .f32⟩
  | .hbm, ⟨69, _⟩ => ⟨S_, .f32⟩
  | .hbm, ⟨70, _⟩ => ⟨S16384x64, .f32⟩
  | .hbm, ⟨71, _⟩ => ⟨S524288x1, .i32⟩
  | .hbm, ⟨72, _⟩ => ⟨S16384x64, .f32⟩
  | .hbm, ⟨73, _⟩ => ⟨S16384x1, .f32⟩
  | .hbm, ⟨74, _⟩ => ⟨S16384x64, .f32⟩
  | .hbm, ⟨75, _⟩ => ⟨S16384x64, .f32⟩
  | .hbm, ⟨76, _⟩ => ⟨S1x64, .f32⟩
  | .hbm, ⟨77, _⟩ => ⟨S16384x64, .f32⟩
  | .hbm, ⟨78, _⟩ => ⟨S16384x64, .f32⟩
  | .hbm, ⟨79, _⟩ => ⟨S16384x64, .f32⟩
  | .hbm, ⟨80, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x2048, .f32⟩
  | .local _ .vmem, ⟨15, _⟩ => ⟨S2048x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_cst : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S2048x256_S2048x256 : S2048x256.ShapeCasts S2048x256
  inb_S256x64_S256x64_0_0 : ∀ a, (![0, 0] : Fin 2 → Nat) a + S256x64.size a ≤ S256x64.size a
  h_S256x64 : 0 < S256x64.numel
  inb_S2048x64_S2048x64_0_0 : ∀ a, (![0, 0] : Fin 2 → Nat) a + S2048x64.size a ≤ S2048x64.size a
  h_S2048x64 : 0 < S2048x64.numel
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  scatter_S16384_S524288x1_S524288_n_0_0_1_wf : ScatterDims.WF S16384 S524288x1 S524288 [] [0] [0] 1
  dot_S2048x512_S512x256_S2048x256_1_0_0_1_n_n_wf : DotDims.WF S2048x512 S512x256 S2048x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x64_S2048x64_1_0_0_1_n_n_wf : DotDims.WF S2048x256 S256x64 S2048x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .f32 = 32 ∨ (Rect.block (s := S16384x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S16384x16384.size a
  hwx2_2 : ∀ i : grid2.Coords, EltTy.bits .f32 = 32 ∨ (Rect.block (s := S16384x16384) S2048x2048.size (cc2_transform_2 i) (hinb2_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_v17) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x512 : Shape := ⟨2, ![16384, 512]⟩
abbrev S524288 : Shape := ⟨1, ![524288]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x64 : Shape := ⟨2, ![16384, 64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x256 : Shape := ⟨2, ![16384, 256]⟩
abbrev S524288x256 : Shape := ⟨2, ![524288, 256]⟩
abbrev S1x256 : Shape := ⟨2, ![1, 256]⟩
abbrev S524288x64 : Shape := ⟨2, ![524288, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S16384x64, .f32⟩
  | .hbm, ⟨8, _⟩ => ⟨S_, .f32⟩
  | .hbm, ⟨9, _⟩ => ⟨S524288, .f32⟩
  | .hbm, ⟨10, _⟩ => ⟨S_, .f32⟩
  | .hbm, ⟨11, _⟩ => ⟨S16384, .f32⟩
  | .hbm, ⟨12, _⟩ => ⟨S524288x1, .i32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S524288x1, .i32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x512, .f32⟩
  | .hbm, ⟨32, _⟩ => ⟨S16384x512, .f32⟩
  | .hbm, ⟨33, _⟩ => ⟨S16384x256, .f32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S524288x1, .i32⟩
  | .hbm, ⟨42, _⟩ => ⟨S524288x256, .f32⟩
  | .hbm, ⟨43, _⟩ => ⟨S_, .f32⟩
  | .hbm, ⟨44, _⟩ => ⟨S16384x256, .f32⟩
  | .hbm, ⟨45, _⟩ => ⟨S524288x1, .i32⟩
  | .hbm, ⟨46, _⟩ => ⟨S16384x256, .f32⟩
  | .hbm, ⟨47, _⟩ => ⟨S16384x1, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S16384x256, .f32⟩
  | .hbm, ⟨52, _⟩ => ⟨S16384x256, .f32⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S16384x1, .f32⟩
  | .hbm, ⟨57, _⟩ => ⟨S16384x256, .f32⟩
  | .hbm, ⟨58, _⟩ => ⟨S16384x256, .f32⟩
  | .hbm, ⟨59, _⟩ => ⟨S16384x64, .f32⟩
  | .hbm, ⟨60, _⟩ => ⟨S_, .i32⟩
  | .hbm, ⟨61, _⟩ => ⟨S524288, .i32⟩
  | .hbm, ⟨62, _⟩ => ⟨S524288, .i1⟩
  | .hbm, ⟨63, _⟩ => ⟨S_, .i32⟩
  | .hbm, ⟨64, _⟩ => ⟨S524288, .i32⟩
  | .hbm, ⟨65, _⟩ => ⟨S524288, .i32⟩
  | .hbm, ⟨66, _⟩ => ⟨S524288, .i32⟩
  | .hbm, ⟨67, _⟩ => ⟨S524288x1, .i32⟩
  | .hbm, ⟨68, _⟩ => ⟨S524288x64, .f32⟩
  | .hbm, ⟨69, _⟩ => ⟨S_, .f32⟩
  | .hbm, ⟨70, _⟩ => ⟨S16384x64, .f32⟩
  | .hbm, ⟨71, _⟩ => ⟨S524288x1, .i32⟩
  | .hbm, ⟨72, _⟩ => ⟨S16384x64, .f32⟩
  | .hbm, ⟨73, _⟩ => ⟨S16384x1, .f32⟩
  | .hbm, ⟨74, _⟩ => ⟨S16384x64, .f32⟩
  | .hbm, ⟨75, _⟩ => ⟨S16384x64, .f32⟩
  | .hbm, ⟨76, _⟩ => ⟨S1x64, .f32⟩
  | .hbm, ⟨77, _⟩ => ⟨S16384x64, .f32⟩
  | .hbm, ⟨78, _⟩ => ⟨S16384x64, .f32⟩
  | .hbm, ⟨79, _⟩ => ⟨S16384x64, .f32⟩
  | .hbm, ⟨80, _⟩ => ⟨S64x16384, .f32⟩
  | .hbm, ⟨81, _⟩ => ⟨S16384x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_cst : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  scatter_S16384_S524288x1_S524288_n_0_0_1_wf : ScatterDims.WF S16384 S524288x1 S524288 [] [0] [0] 1
  dot_S16384x512_S512x256_S16384x256_1_0_0_1_n_n_wf : DotDims.WF S16384x512 S512x256 S16384x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x16384_S16384x16384_1_0_0_1_n_n_wf : DotDims.WF S16384x64 S64x16384 S16384x16384 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.KB.Reg0.lean ====
/-
  The first region of the program: the product of the degree-scaled features (16384 × 512) with the first weight
  (512 × 256), eight row blocks of 2048 rows, one grid point each. Point i reads row block i of the left operand
  through window 0 and the whole weight through window 1, and writes row block i of the product through window 2.
  Stated at a parameter `V`, the core's buffer contents when the region is entered: each window's block at a point;
  what the body leaves in the output window's buffer (its one store, the product of the two loaded values contracted
  over the 512 columns); the body's triple; the pipeline's proof data; and the body obligation at every point.
-/
import proofs.«171155_j1898375544939_1_alg».proof.Proof.Gen.Kernel.Launch
import proofs.«171155_j1898375544939_1_alg».proof.Proof.Gen.Kernel.Skeleton
import proofs.«171155_j1898375544939_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the whole weight at every point, though it is fetched at the first point only: its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_a : Rect S2048x512 := Rect.unit (s := S2048x512) ![0, 0] S2048x512.size inb_S2048x512_S2048x512_0_0
abbrev r0_b : Rect S512x256 := Rect.unit (s := S512x256) ![0, 0] S512x256.size inb_S512x256_S512x256_0_0
abbrev r0_out : Rect S2048x256 := Rect.unit (s := S2048x256) ![0, 0] S2048x256.size inb_S2048x256_S2048x256_0_0

/-! ## What the body leaves in the output window's buffer -/

/-- The output buffer after the body: its one store, the product of the row block with the weight. -/
def out0_2 (x0 : Vec F S2048x512 .f32) (x1 : Vec F S512x256 .f32) : Vec F S2048x256 .f32 :=
  View.canon [⟨r0_out, k0_pay1 (View.ld x0 r0_a) (View.ld x1 r0_b)⟩]

/-- The one store covers the buffer. -/
theorem cover0_2 (p0 : Vec F S2048x256 .f32) (y : S2048x256.Idx) :
    ∃ pc ∈ ([⟨r0_out, p0⟩] : List (View.Piece (Elt F) S2048x256 .f32)), y ∈ pc.1.set :=
  View.cover_of_tiled [⟨r0_out, p0⟩] S2048x256.size (by rfl) y

/-! ## The body's triple -/

set_option maxHeartbeats 1000000 in
/-- The body on whole buffers, the two inputs' at contents `x0`, `x1` and the output's at anything, runs to the
    continuation holding the inputs as they were and the output at `out0_2 x0 x1`. -/
theorem sound_kernel0 (c : Dev nD) (E : Set ℕ) (i : grid0.Coords)
    (arg0 : Memref sig .tc .vmem S2048x512 .f32) (harg0 : arg0.IsWhole) (arg1 : Memref sig .tc .vmem S512x256 .f32) (harg1 : arg1.IsWhole)
    (arg2 : Memref sig .tc .vmem S2048x256 .f32) (harg2 : arg2.IsWhole)
    (x0 : Vec F S2048x512 .f32) (x1 : Vec F S512x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each reading window's buffer at its block and the output's at the product of the two; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the reading windows' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  The second region of the program: the product of the degree-scaled hidden features (16384 × 256) with the second
  weight (256 × 64), eight row blocks of 2048 rows, one grid point each. Point i reads row block i of the left operand
  through window 0 and the whole weight through window 1, and writes row block i of the product through window 2.
  Stated at a parameter `V`, the core's buffer contents when the region is entered: each window's block at a point;
  what the body leaves in the output window's buffer (its one store, the product of the two loaded values contracted
  over the 256 columns); the body's triple; the pipeline's proof data; and the body obligation at every point.
-/
import proofs.«171155_j1898375544939_1_alg».proof.Proof.Gen.Kernel.Launch
import proofs.«171155_j1898375544939_1_alg».proof.Proof.Gen.Kernel.Skeleton
import proofs.«171155_j1898375544939_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's buffer holds its row block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's buffer holds the whole weight at every point, though it is fetched at the first point only: its
    block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_a : Rect S2048x256 := Rect.unit (s := S2048x256) ![0, 0] S2048x256.size inb_S2048x256_S2048x256_0_0
abbrev r1_b : Rect S256x64 := Rect.unit (s := S256x64) ![0, 0] S256x64.size inb_S256x64_S256x64_0_0
abbrev r1_out : Rect S2048x64 := Rect.unit (s := S2048x64) ![0, 0] S2048x64.size inb_S2048x64_S2048x64_0_0

/-! ## What the body leaves in the output window's buffer -/

/-- The output buffer after the body: its one store, the product of the row block with the weight. -/
def out1_2 (x0 : Vec F S2048x256 .f32) (x1 : Vec F S256x64 .f32) : Vec F S2048x64 .f32 :=
  View.canon [⟨r1_out, k1_pay1 (View.ld x0 r1_a) (View.ld x1 r1_b)⟩]

/-- The one store covers the buffer. -/
theorem cover1_2 (p0 : Vec F S2048x64 .f32) (y : S2048x64.Idx) :
    ∃ pc ∈ ([⟨r1_out, p0⟩] : List (View.Piece (Elt F) S2048x64 .f32)), y ∈ pc.1.set :=
  View.cover_of_tiled [⟨r1_out, p0⟩] S2048x64.size (by rfl) y

/-! ## The body's triple -/

set_option maxHeartbeats 1000000 in
/-- The body on whole buffers, the two inputs' at contents `x0`, `x1` and the output's at anything, runs to the
    continuation holding the inputs as they were and the output at `out1_2 x0 x1`. -/
theorem sound_kernel1 (c : Dev nD) (E : Set ℕ) (i : grid1.Coords)
    (arg0 : Memref sig .tc .vmem S2048x256 .f32) (harg0 : arg0.IsWhole) (arg1 : Memref sig .tc .vmem S256x64 .f32) (harg1 : arg1.IsWhole)
    (arg2 : Memref sig .tc .vmem S2048x64 .f32) (harg2 : arg2.IsWhole)
    (x0 : Vec F S2048x256 .f32) (x1 : Vec F S256x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each reading window's buffer at its block and the output's at the product of the two; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the reading windows' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  The third region of the program: the inner-product decode `z · zᵀ` over an 8 × 8 grid of 2048 × 2048 output blocks.
  Point (i, j) reads row block i of `z` through window 0 and row block j of the SAME array `z` through window 1, and
  writes block (i, j) of the result through window 2. Stated at a parameter `V`, the core's buffer contents when the
  region is entered: each window's block at a point; what the body leaves in the output window's buffer (its one store,
  the product of the two loaded blocks contracted over their 64 columns); the body's triple; the pipeline's proof data,
  in which the two reading windows hold the left and the right half of the share of `z`'s buffer; and the body
  obligation at every point.
-/
import proofs.«171155_j1898375544939_1_alg».proof.Proof.Gen.Kernel.Launch
import proofs.«171155_j1898375544939_1_alg».proof.Proof.Gen.Kernel.Skeleton
import proofs.«171155_j1898375544939_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Reading window 0's buffer holds row block i of `z` at every point, fetched there or not: where it is not fetched
    the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Reading window 1's buffer holds row block j of `z` at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_in : Rect S2048x64 := Rect.unit (s := S2048x64) ![0, 0] S2048x64.size inb_S2048x64_S2048x64_0_0
abbrev r2_out : Rect S2048x2048 := Rect.unit (s := S2048x2048) ![0, 0] S2048x2048.size inb_S2048x2048_S2048x2048_0_0

/-! ## What the body leaves in the output window's buffer -/

/-- The output buffer after the body: its one store, the product of the two loaded blocks. -/
def out2_2 (x0 x1 : Vec F S2048x64 .f32) : Vec F S2048x2048 .f32 :=
  View.canon [⟨r2_out, k2_pay1 (View.ld x0 r2_in) (View.ld x1 r2_in)⟩]

/-- The one store covers the buffer. -/
theorem cover2_2 (p0 : Vec F S2048x2048 .f32) (y : S2048x2048.Idx) :
    ∃ pc ∈ ([⟨r2_out, p0⟩] : List (View.Piece (Elt F) S2048x2048 .f32)), y ∈ pc.1.set :=
  View.cover_of_tiled [⟨r2_out, p0⟩] S2048x2048.size (by rfl) y

/-! ## The body's triple -/

set_option maxHeartbeats 1000000 in
/-- The body on whole buffers, the two inputs' at contents `x0`, `x1` and the output's at anything, runs to the
    continuation holding the inputs as they were and the output at `out2_2 x0 x1`. -/
theorem sound_kernel2 (c : Dev nD) (E : Set ℕ) (i : grid2.Coords)
    (arg0 : Memref sig .tc .vmem S2048x64 .f32) (harg0 : arg0.IsWhole) (arg1 : Memref sig .tc .vmem S2048x64 .f32) (harg1 : arg1.IsWhole)
    (arg2 : Memref sig .tc .vmem S2048x2048 .f32) (harg2 : arg2.IsWhole)
    (x0 x1 : Vec F S2048x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__decode_kernel i arg0 harg0 arg1 harg1 arg2 harg2) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the decode pipeline on core `c`: the arrays as the region finds them; after the body at point
    `t` each reading window's buffer at its block and the output's at the product of the two blocks; the invariant the
    scoped rest and the generator register, untouched; nothing owed. The two reading windows are on ONE array, so
    each holds half of that buffer's share: the left half window 0, the right half window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the reading windows' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Share2.lean ====
/-
  The decode region reads ONE array, `z`, through two windows. Its proof data therefore hold `z`'s buffer twice, at
  the left and the right half of the share, beside the result's buffer at the full share. This module says how those
  three holdings and the core's other unscoped buffers make up the core's unscoped buffers, in both directions: at the
  region's entry the whole buffer of `z` is cut into its two halves, and at the exit the halves (still at `z`'s
  contents, a reading window never writes) are joined again, the result's buffer now at what the region left in it.
-/
import proofs.«171155_j1898375544939_1_alg».proof.Proof.Gen.Kernel.Launch
import proofs.«171155_j1898375544939_1_alg».proof.Proof.Gen.Kernel.Skeleton
import proofs.«171155_j1898375544939_1_alg».proof.Proof.Gen.Kernel.Points
import proofs.«171155_j1898375544939_1_alg».proof.Proof.KB.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (unscopedRest arrBufs arrRef)

/-- The decode region's windows are on two buffers: `z` (twice) and the result. -/
theorem arrImage2 : (Finset.univ.image (arrRef spec2) : Finset (Ref sig .tc)) = {main_v56, main_v57} := by decide

variable (Vd : (c : Dev nD) → (b : Ref sig .tc) → Buf (Elt F) ((c : Thread nD τ).loc b))

/-- The share the proof data hold each window's array at: the left half, the right half, and (the result) the whole. -/
theorem share2_0 (c : Dev nD) : (dat2 Vd c).share 0 = fullShare.left := by
  unfold Pipeline.Dat.share
  rw [show (cfg2.win 0).isOut = false from rfl]
  simp only [Bool.false_eq_true, ↓reduceIte]
  dsimp only [dat2]
theorem share2_1 (c : Dev nD) : (dat2 Vd c).share 1 = fullShare.right := by
  unfold Pipeline.Dat.share
  rw [show (cfg2.win 1).isOut = false from rfl]
  simp only [Bool.false_eq_true, ↓reduceIte]
  dsimp only [dat2]
theorem share2_2 (c : Dev nD) : (dat2 Vd c).share 2 = fullShare := by
  unfold Pipeline.Dat.share
  rw [show (cfg2.win 2).isOut = true from rfl]
  simp only [↓reduceIte]

/-- The three holdings of the proof data at contents `G` on `z` (both windows) and `H` on the result, beside the
    other unscoped buffers at `V`, ARE the core's unscoped buffers at any valuation `V'` that has `G` at `z`, `H` at
    the result and agrees with `V` elsewhere. -/
theorem arrays2_eq (c : Dev nD) (V V' : (b : Ref sig .tc) → Buf (Elt F) ((c : Thread nD τ).loc b))
    (Fw : (w : Fin cfg2.W) → Buf (Elt F) ((cfg2.win w).arr.view.loc (c : Thread nD τ)))
    (h0 : Fw 0 = V' (arrRef spec2 0)) (h1 : Fw 1 = V' (arrRef spec2 1)) (h2 : Fw 2 = V' (arrRef spec2 2))
    (hrest : ∀ b, b ∉ Finset.univ.image (arrRef spec2) → V' b = V b) :
    (iprop((dat2 Vd c).arrays Fw ∗ unscopedRest spec2 c V) : sProp 𝕄) = unscopedBufs c V' := by
  rw [Pipeline.unscopedBufs_split₀ cfgs 2 winFacts₀2.arr_unscoped c V']
  have hr : (unscopedRest spec2 c V : sProp 𝕄) = unscopedRest spec2 c V' := by
    unfold unscopedRest
    exact bigSep_congr fun b hb => by rw [hrest b (Finset.mem_sdiff.mp hb).2]
  rw [hr]
  refine congrArg₂ _ ?_ rfl
  unfold Pipeline.Dat.arrays arrBufs
  rw [show Finset.image (arrRef (cfgs 2).spec) Finset.univ = ({main_v56, main_v57} : Finset (Ref sig .tc)) from arrImage2, bigSep_insert (by decide), bigSep_singleton, bigSep_W2, h0, h1, h2,
    (arr_whole2 0).set_eq_univ, (arr_whole2 2).set_eq_univ]
  simp only [share2_0 Vd c, share2_1 Vd c, share2_2 Vd c]
  have hcut : (((c : Thread nD τ).loc main_v56 ↦{fullShare} V' main_v56 : sProp 𝕄))
      = iprop(((c : Thread nD τ).loc main_v56 ↦{fullShare.left} V' main_v56) ∗ ((c : Thread nD τ).loc main_v56 ↦{fullShare.right} V' main_v56)) :=
    equiv_iff.mp ⟨(pointsTo_share (PosShare.mem_left_op_right fullShare)).1, (pointsTo_share (PosShare.mem_left_op_right fullShare)).2⟩
  show (iprop((((c : Thread nD τ).loc main_v56 ↦{fullShare.left} V' main_v56)) ∗ (((c : Thread nD τ).loc main_v56 ↦{fullShare.right} V' main_v56))
      ∗ ((c : Thread nD τ).loc main_v57 ↦{fullShare} V' main_v57)) : sProp 𝕄) = _
  rw [hcut]
  exact equiv_iff.mp ⟨Idealize.SL.BI.sep_assoc', Idealize.SL.BI.sep_assoc⟩

end Cert.Kernel.Hand

end
-- ==== Proof.KB.Run.lean ====
/-
  The run of the whole program, from the launch to the return, at any float instance. @main is eight items: a stretch of
  host operations (the degree normalisations and the scaled features), the first product region, three stretches (the
  edge gather and segment sum, the bias and the rectifier, the second scaling), the second product region, one more
  stretch (gather, segment sum, bias, dropout mask) and the decode region. Between two items core `c` holds every
  unscoped buffer at a named valuation: the launch contents, then each stretch's operations applied, then — after a
  region — that region's result array at what its write-backs leave and every other buffer as the region found it.
  Each region is entered by splitting its arrays out of those buffers and left by putting them back; the decode
  region's two reading windows share the array `z`, whose buffer is cut into two half shares on the way in and joined
  on the way out. The run theorem states that every weakly fair execution ends, without a fault, in a memory that has
  every unscoped buffer at the last valuation: the arguments (no item writes one) as launched, and the result at what
  the decode region left.
-/
import proofs.«171155_j1898375544939_1_alg».proof.Proof.Gen.Kernel.Launch
import proofs.«171155_j1898375544939_1_alg».proof.Proof.Gen.Kernel.Skeleton
import proofs.«171155_j1898375544939_1_alg».proof.Proof.Gen.Kernel.Points
import proofs.«171155_j1898375544939_1_alg».proof.Proof.Gen.Kernel.Regions
import proofs.«171155_j1898375544939_1_alg».proof.Proof.KB.Reg0
import proofs.«171155_j1898375544939_1_alg».proof.Proof.KB.Reg1
import proofs.«171155_j1898375544939_1_alg».proof.Proof.KB.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 (c : Dev nD) : Valuation τ sig (Elt F) := fun b => m (c, b)
/-- After the first stretch (the first region's entry). -/
abbrev B1 (c : Dev nD) : Valuation τ sig (Elt F) := StableHlo.after hostOps0 (B0 m c)
abbrev E1 : (c : Dev nD) → (b : Ref sig .tc) → Buf (Elt F) ((c : Thread nD τ).loc b) := fun c b => B1 m c b
/-- At the first region's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the three stretches between the first and the second region. -/
abbrev B3 (c : Dev nD) : Valuation τ sig (Elt F) := StableHlo.after hostOps1 (B2 m c)
abbrev B4 (c : Dev nD) : Valuation τ sig (Elt F) := StableHlo.after hostOps1_1 (B3 m c)
abbrev B5 (c : Dev nD) : Valuation τ sig (Elt F) := StableHlo.after hostOps1_2 (B4 m c)
abbrev E5 : (c : Dev nD) → (b : Ref sig .tc) → Buf (Elt F) ((c : Thread nD τ).loc b) := fun c b => B5 m c b
/-- At the second region's exit. -/
def B6 (c : Dev nD) : Valuation τ sig (Elt F) :=
  Pipeline.withArrays spec1 c (B5 m c) fun w => (dat1 (E5 m) c).arrAt w cfg1.N
theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem hF1 (c : Dev nD) (w : Fin cfg1.W) : (dat1 (E5 m) c).arrAt w cfg1.N = E6 m c (Pipeline.arrRef spec1 w) :=
  (B6_arr m c w).symm
theorem hrest1 (c : Dev nD) : ∀ b, b ∉ Finset.univ.image (Pipeline.arrRef spec1) → E6 m c b = E5 m c b :=
  fun b hb => B6_of_ne m c b fun w e => hb (Finset.mem_image.mpr ⟨w, Finset.mem_univ _, e⟩)

/-- After the last stretch (the decode region's entry). -/
abbrev B7 (c : Dev nD) : Valuation τ sig (Elt F) := StableHlo.after hostOps2 (B6 m c)
abbrev E7 : (c : Dev nD) → (b : Ref sig .tc) → Buf (Elt F) ((c : Thread nD τ).loc b) := fun c b => B7 m c b
/-- At the decode region's exit: the result's buffer at what the pipeline leaves, every other buffer (`z` among
    them: both its windows only read) as entered. -/
def B8 (c : Dev nD) : Valuation τ sig (Elt F) :=
  Function.update (B7 m c) (Proc.devRef .tc main_v57) ((dat2 (E7 m) c).arrAt 2 cfg2.N)
abbrev E8 : (c : Dev nD) → (b : Ref sig .tc) → Buf (Elt F) ((c : Thread nD τ).loc b) := fun c b => B8 m c b
theorem B8_result (c : Dev nD) : B8 m c (Proc.devRef .tc main_v57) = (dat2 (E7 m) c).arrAt 2 cfg2.N := by
  unfold B8; exact Function.update_self ..
theorem B8_of_ne (c : Dev nD) (b : Ref sig .tc) (hb : b ≠ main_v57) : B8 m c (Proc.devRef .tc b) = B7 m c (Proc.devRef .tc b) := by
  unfold B8; exact Function.update_of_ne (StableHlo.devRef_ne_of_ne hb) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the debts: every unscoped buffer at the last contents, the generator register. -/
abbrev Tₙ (c : Dev nD) : sProp 𝕄 := iprop(StableHlo.held (c : Thread nD τ) (Pipeline.ucRefs τ sig) (B8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `B1`, left at `B2`. Its arrays are
    split out of the unscoped buffers at entry and put back at the exit contents; the generator register goes into
    the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `B5`, left at `B6`. Its arrays are
    split out of the unscoped buffers at entry and put back at the exit contents; the generator register goes into
    the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The decode region over the thread state: entered from every unscoped buffer at `B7`, left at `B8`. At entry the
    buffer of `z` is cut into the two half shares its two reading windows hold; at exit the halves, still at `z`'s
    contents, are joined, and the result's buffer comes back at what the write-backs left. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit : (unscopedBufs (Ix := Unit) (Name := ℕ) (U := UR sig nD τ) (Lvl := ℕ) c (E7 m c) : sProp 𝕄)
        ⊢ iprop((pdats m 2 c).arrays ((pdats m 2 c).arrAt · 0) ∗ Pipeline.unscopedRest spec2 c (E7 m c)) :=
      Entails.of_eq (arrays2_eq (E7 m) c (E7 m c) (E7 m c) ((dat2 (E7 m) c).arrAt · 0) rfl rfl rfl (fun _ _ => rfl)).symm
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays ((pdats m 2 c).arrAt · cfg2.N) ∗ Pipeline.unscopedRest spec2 c (E7 m c)) : sProp 𝕄)
        ⊢ unscopedBufs (Ix := Unit) (Name := ℕ) (U := UR sig nD τ) (Lvl := ℕ) c (E8 m c) :=
      Entails.of_eq (arrays2_eq (E7 m) c (E7 m c) (E8 m c) ((dat2 (E7 m) c).arrAt · cfg2.N)
        (((dat2 (E7 m) c).arrAt_in 0 rfl _).trans ((A_eq2 (E7 m) c 0).trans (B8_of_ne m c _ (by decide)).symm))
        (((dat2 (E7 m) c).arrAt_in 1 rfl _).trans ((A_eq2 (E7 m) c 1).trans (B8_of_ne m c _ (by decide)).symm))
        (B8_result m c).symm
        (fun b hb => B8_of_ne m c b fun e => hb (by rw [e, arrImage2]; decide)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .host (hseg hostOps1_1 hostOps1_1_sub hostOps1_1_fresh (B3 m)),
    .host (hseg hostOps1_2 hostOps1_2_sub hostOps1_2_fresh (B4 m)),
    .region (reg1 m),
    .host (hseg hostOps2 hostOps2_sub hostOps2_fresh (B6 m)),
    .region (reg2 m) ]
/-- @main IS the run of the segments. -/
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final memory has each unscoped buffer of core `c` at `B8 m c`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun s h c => h c)

end Cert.Kernel.Hand

end
-- ==== Proof.KB.Args.lean ====
/-
  No item of the program writes an argument array: no host stretch names one as a result, and a region either does not
  touch it or reads it through a reading window, whose array the write-backs never change. So the contents of an
  argument's buffer at the last boundary, walked back boundary by boundary, are the launch contents.
-/
import proofs.«171155_j1898375544939_1_alg».proof.Proof.Gen.Kernel.Launch
import proofs.«171155_j1898375544939_1_alg».proof.Proof.Gen.Kernel.Skeleton
import proofs.«171155_j1898375544939_1_alg».proof.Proof.Gen.Kernel.Points
import proofs.«171155_j1898375544939_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A reading window's array leaves the first region as it entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
/-- A reading window's array leaves the second region as it entered. -/
theorem B6_in (c : Dev nD) (w : Fin cfg1.W) (hw : (cfg1.win w).isOut = false) :
    B6 m c (Proc.devRef .tc (Pipeline.arrRef spec1 w)) = B5 m c (Proc.devRef .tc (Pipeline.arrRef spec1 w)) :=
  (B6_arr m c w).trans (((dat1 (E5 m) c).arrAt_in w hw _).trans (A_eq1 (E5 m) c w))

/-- The stretches between the two product regions leave a buffer none of them writes. -/
theorem B5_of (c : Dev nD) (r : Ref sig .tc) (h5 : r ∉ hostOps1_2_W) (h4 : r ∉ hostOps1_1_W) (h3 : r ∉ hostOps1_W) :
    B5 m c (Proc.devRef .tc r) = B2 m c (Proc.devRef .tc r) :=
  (StableHlo.after_of_writes_sub hostOps1_2 _ hostOps1_2_writes h5).trans <|
    (StableHlo.after_of_writes_sub hostOps1_1 _ hostOps1_1_writes h4).trans <|
      StableHlo.after_of_writes_sub hostOps1 _ hostOps1_writes h3

/-- A buffer no stretch writes and no region holds as an array reaches the end as launched. -/
theorem B8_untouched (c : Dev nD) (r : Ref sig .tc) (h8 : r ≠ main_v57) (h7 : r ∉ hostOps2_W) (h6 : ∀ w, Pipeline.arrRef spec1 w ≠ r)
    (h5 : r ∉ hostOps1_2_W) (h4 : r ∉ hostOps1_1_W) (h3 : r ∉ hostOps1_W) (h2 : ∀ w, Pipeline.arrRef spec0 w ≠ r) (h1 : r ∉ hostOps0_W) :
    B8 m c (Proc.devRef .tc r) = m ((c : Thread nD τ).loc r) :=
  (B8_of_ne m c r h8).trans <| (StableHlo.after_of_writes_sub hostOps2 _ hostOps2_writes h7).trans <|
    (B6_of_ne m c r h6).trans <| (B5_of m c r h5 h4 h3).trans <| (B2_of_ne m c r h2).trans <|
      (StableHlo.after_of_writes_sub hostOps0 _ hostOps0_writes h1).trans rfl

theorem B8_main_arg0 (c : Dev nD) : B8 m c (Proc.devRef .tc main_arg0) = m ((c : Thread nD τ).loc main_arg0) :=
  B8_untouched m c main_arg0 (by decide) (by decide) (by decide) (by decide) (by decide) (by decide) (by decide) (by decide)
theorem B8_main_arg1 (c : Dev nD) : B8 m c (Proc.devRef .tc main_arg1) = m ((c : Thread nD τ).loc main_arg1) :=
  B8_untouched m c main_arg1 (by decide) (by decide) (by decide) (by decide) (by decide) (by decide) (by decide) (by decide)
theorem B8_main_arg2 (c : Dev nD) : B8 m c (Proc.devRef .tc main_arg2) = m ((c : Thread nD τ).loc main_arg2) :=
  B8_untouched m c main_arg2 (by decide) (by decide) (by decide) (by decide) (by decide) (by decide) (by decide) (by decide)
/-- The first weight is the first region's second reading window. -/
theorem B8_main_arg3 (c : Dev nD) : B8 m c (Proc.devRef .tc main_arg3) = m ((c : Thread nD τ).loc main_arg3) :=
  (B8_of_ne m c main_arg3 (by decide)).trans <| (StableHlo.after_of_writes_sub hostOps2 _ hostOps2_writes (by decide)).trans <|
    (B6_of_ne m c main_arg3 (by decide)).trans <| (B5_of m c main_arg3 (by decide) (by decide) (by decide)).trans <|
      (B2_in m c 1 rfl).trans <| (StableHlo.after_of_writes_sub hostOps0 _ hostOps0_writes (by decide)).trans rfl
theorem B8_main_arg4 (c : Dev nD) : B8 m c (Proc.devRef .tc main_arg4) = m ((c : Thread nD τ).loc main_arg4) :=
  B8_untouched m c main_arg4 (by decide) (by decide) (by decide) (by decide) (by decide) (by decide) (by decide) (by decide)
/-- The second weight is the second region's second reading window. -/
theorem B8_main_arg5 (c : Dev nD) : B8 m c (Proc.devRef .tc main_arg5) = m ((c : Thread nD τ).loc main_arg5) :=
  (B8_of_ne m c main_arg5 (by decide)).trans <| (StableHlo.after_of_writes_sub hostOps2 _ hostOps2_writes (by decide)).trans <|
    (B6_in m c 1 rfl).trans <| (B5_of m c main_arg5 (by decide) (by decide) (by decide)).trans <|
      (B2_of_ne m c main_arg5 (by decide)).trans <| (StableHlo.after_of_writes_sub hostOps0 _ hostOps0_writes (by decide)).trans rfl
theorem B8_main_arg6 (c : Dev nD) : B8 m c (Proc.devRef .tc main_arg6) = m ((c : Thread nD τ).loc main_arg6) :=
  B8_untouched m c main_arg6 (by decide) (by decide) (by decide) (by decide) (by decide) (by decide) (by decide) (by decide)
theorem B8_main_arg7 (c : Dev nD) : B8 m c (Proc.devRef .tc main_arg7) = m ((c : Thread nD τ).loc main_arg7) :=
  B8_untouched m c main_arg7 (by decide) (by decide) (by decide) (by decide) (by decide) (by decide) (by decide) (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B8_main_arg0 m c),
      (h c _ (mem_uc main_arg1 (by decide))).trans (B8_main_arg1 m c),
      (h c _ (mem_uc main_arg2 (by decide))).trans (B8_main_arg2 m c),
      (h c _ (mem_uc main_arg3 (by decide))).trans (B8_main_arg3 m c),
      (h c _ (mem_uc main_arg4 (by decide))).trans (B8_main_arg4 m c),
      (h c _ (mem_uc main_arg5 (by decide))).trans (B8_main_arg5 m c),
      (h c _ (mem_uc main_arg6 (by decide))).trans (B8_main_arg6 m c),
      (h c _ (mem_uc main_arg7 (by decide))).trans (B8_main_arg7 m c)⟩) (run_all m ρ)

/-- THE VALUE RUN: the same executions end with the result array at what the decode region left in it,
    `B8 m c` at the result's buffer, beside the unchanged arguments. -/
theorem run_value (ρ : Dev nD → PrngReg) : θ_run defs (onTc (τ := τ) (main (F := F))) ⟨m, fun _ => 0, ρ⟩ (fun r => ∀ c : Dev nD,
      r.2.mem ((c.tc : Thread nD τ).loc main_v57) = B8 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v57 (by decide)),
      (h c _ (mem_uc main_arg0 (by decide))).trans (B8_main_arg0 m c),
      (h c _ (mem_uc main_arg1 (by decide))).trans (B8_main_arg1 m c),
      (h c _ (mem_uc main_arg2 (by decide))).trans (B8_main_arg2 m c),
      (h c _ (mem_uc main_arg3 (by decide))).trans (B8_main_arg3 m c),
      (h c _ (mem_uc main_arg4 (by decide))).trans (B8_main_arg4 m c),
      (h c _ (mem_uc main_arg5 (by decide))).trans (B8_main_arg5 m c),
      (h c _ (mem_uc main_arg6 (by decide))).trans (B8_main_arg6 m c),
      (h c _ (mem_uc main_arg7 (by decide))).trans (B8_main_arg7 m c)⟩) (run_all m ρ)

end Cert.Kernel.Hand

end
-- ==== Proof.KI.Reg0.lean ====
/-
  The first region of the program: the product of the degree-scaled features (16384 × 512) with the first weight
  (512 × 256), eight row blocks of 2048 rows, one grid point each. Point i reads row block i of the left operand
  through window 0 and the whole weight through window 1, and writes row block i of the product through window 2.
  Stated at a parameter `V`, the core's buffer contents when the region is entered: each window's block at a point;
  what the body leaves in the output window's buffer (its one store, the product of the two loaded values contracted
  over the 512 columns); the body's triple; the pipeline's proof data; and the body obligation at every point.
-/
import proofs.«171155_j1898375544939_1_alg».proof.Proof.Gen.KernelIdeal.Launch
import proofs.«171155_j1898375544939_1_alg».proof.Proof.Gen.KernelIdeal.Skeleton
import proofs.«171155_j1898375544939_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the whole weight at every point, though it is fetched at the first point only: its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_a : Rect S2048x512 := Rect.unit (s := S2048x512) ![0, 0] S2048x512.size inb_S2048x512_S2048x512_0_0
abbrev r0_b : Rect S512x256 := Rect.unit (s := S512x256) ![0, 0] S512x256.size inb_S512x256_S512x256_0_0
abbrev r0_out : Rect S2048x256 := Rect.unit (s := S2048x256) ![0, 0] S2048x256.size inb_S2048x256_S2048x256_0_0

/-! ## What the body leaves in the output window's buffer -/

/-- The output buffer after the body: its one store, the product of the row block with the weight. -/
def out0_2 (x0 : Vec F S2048x512 .f32) (x1 : Vec F S512x256 .f32) : Vec F S2048x256 .f32 :=
  View.canon [⟨r0_out, k0_pay1 (View.ld x0 r0_a) (View.ld x1 r0_b)⟩]

/-- The one store covers the buffer. -/
theorem cover0_2 (p0 : Vec F S2048x256 .f32) (y : S2048x256.Idx) :
    ∃ pc ∈ ([⟨r0_out, p0⟩] : List (View.Piece (Elt F) S2048x256 .f32)), y ∈ pc.1.set :=
  View.cover_of_tiled [⟨r0_out, p0⟩] S2048x256.size (by rfl) y

/-! ## The body's triple -/

set_option maxHeartbeats 1000000 in
/-- The body on whole buffers, the two inputs' at contents `x0`, `x1` and the output's at anything, runs to the
    continuation holding the inputs as they were and the output at `out0_2 x0 x1`. -/
theorem sound_kernel0 (c : Dev nD) (E : Set ℕ) (i : grid0.Coords)
    (arg0 : Memref sig .tc .vmem S2048x512 .f32) (harg0 : arg0.IsWhole) (arg1 : Memref sig .tc .vmem S512x256 .f32) (harg1 : arg1.IsWhole)
    (arg2 : Memref sig .tc .vmem S2048x256 .f32) (harg2 : arg2.IsWhole)
    (x0 : Vec F S2048x512 .f32) (x1 : Vec F S512x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each reading window's buffer at its block and the output's at the product of the two; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the reading windows' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second region of the program: the product of the degree-scaled hidden features (16384 × 256) with the second
  weight (256 × 64), eight row blocks of 2048 rows, one grid point each. Point i reads row block i of the left operand
  through window 0 and the whole weight through window 1, and writes row block i of the product through window 2.
  Stated at a parameter `V`, the core's buffer contents when the region is entered: each window's block at a point;
  what the body leaves in the output window's buffer (its one store, the product of the two loaded values contracted
  over the 256 columns); the body's triple; the pipeline's proof data; and the body obligation at every point.
-/
import proofs.«171155_j1898375544939_1_alg».proof.Proof.Gen.KernelIdeal.Launch
import proofs.«171155_j1898375544939_1_alg».proof.Proof.Gen.KernelIdeal.Skeleton
import proofs.«171155_j1898375544939_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's buffer holds its row block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's buffer holds the whole weight at every point, though it is fetched at the first point only: its
    block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_a : Rect S2048x256 := Rect.unit (s := S2048x256) ![0, 0] S2048x256.size inb_S2048x256_S2048x256_0_0
abbrev r1_b : Rect S256x64 := Rect.unit (s := S256x64) ![0, 0] S256x64.size inb_S256x64_S256x64_0_0
abbrev r1_out : Rect S2048x64 := Rect.unit (s := S2048x64) ![0, 0] S2048x64.size inb_S2048x64_S2048x64_0_0

/-! ## What the body leaves in the output window's buffer -/

/-- The output buffer after the body: its one store, the product of the row block with the weight. -/
def out1_2 (x0 : Vec F S2048x256 .f32) (x1 : Vec F S256x64 .f32) : Vec F S2048x64 .f32 :=
  View.canon [⟨r1_out, k1_pay1 (View.ld x0 r1_a) (View.ld x1 r1_b)⟩]

/-- The one store covers the buffer. -/
theorem cover1_2 (p0 : Vec F S2048x64 .f32) (y : S2048x64.Idx) :
    ∃ pc ∈ ([⟨r1_out, p0⟩] : List (View.Piece (Elt F) S2048x64 .f32)), y ∈ pc.1.set :=
  View.cover_of_tiled [⟨r1_out, p0⟩] S2048x64.size (by rfl) y

/-! ## The body's triple -/

set_option maxHeartbeats 1000000 in
/-- The body on whole buffers, the two inputs' at contents `x0`, `x1` and the output's at anything, runs to the
    continuation holding the inputs as they were and the output at `out1_2 x0 x1`. -/
theorem sound_kernel1 (c : Dev nD) (E : Set ℕ) (i : grid1.Coords)
    (arg0 : Memref sig .tc .vmem S2048x256 .f32) (harg0 : arg0.IsWhole) (arg1 : Memref sig .tc .vmem S256x64 .f32) (harg1 : arg1.IsWhole)
    (arg2 : Memref sig .tc .vmem S2048x64 .f32) (harg2 : arg2.IsWhole)
    (x0 : Vec F S2048x256 .f32) (x1 : Vec F S256x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each reading window's buffer at its block and the output's at the product of the two; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the reading windows' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third region of the program: the inner-product decode `z · zᵀ` over an 8 × 8 grid of 2048 × 2048 output blocks.
  Point (i, j) reads row block i of `z` through window 0 and row block j of the SAME array `z` through window 1, and
  writes block (i, j) of the result through window 2. Stated at a parameter `V`, the core's buffer contents when the
  region is entered: each window's block at a point; what the body leaves in the output window's buffer (its one store,
  the product of the two loaded blocks contracted over their 64 columns); the body's triple; the pipeline's proof data,
  in which the two reading windows hold the left and the right half of the share of `z`'s buffer; and the body
  obligation at every point.
-/
import proofs.«171155_j1898375544939_1_alg».proof.Proof.Gen.KernelIdeal.Launch
import proofs.«171155_j1898375544939_1_alg».proof.Proof.Gen.KernelIdeal.Skeleton
import proofs.«171155_j1898375544939_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Reading window 0's buffer holds row block i of `z` at every point, fetched there or not: where it is not fetched
    the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Reading window 1's buffer holds row block j of `z` at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_in : Rect S2048x64 := Rect.unit (s := S2048x64) ![0, 0] S2048x64.size inb_S2048x64_S2048x64_0_0
abbrev r2_out : Rect S2048x2048 := Rect.unit (s := S2048x2048) ![0, 0] S2048x2048.size inb_S2048x2048_S2048x2048_0_0

/-! ## What the body leaves in the output window's buffer -/

/-- The output buffer after the body: its one store, the product of the two loaded blocks. -/
def out2_2 (x0 x1 : Vec F S2048x64 .f32) : Vec F S2048x2048 .f32 :=
  View.canon [⟨r2_out, k2_pay1 (View.ld x0 r2_in) (View.ld x1 r2_in)⟩]

/-- The one store covers the buffer. -/
theorem cover2_2 (p0 : Vec F S2048x2048 .f32) (y : S2048x2048.Idx) :
    ∃ pc ∈ ([⟨r2_out, p0⟩] : List (View.Piece (Elt F) S2048x2048 .f32)), y ∈ pc.1.set :=
  View.cover_of_tiled [⟨r2_out, p0⟩] S2048x2048.size (by rfl) y

/-! ## The body's triple -/

set_option maxHeartbeats 1000000 in
/-- The body on whole buffers, the two inputs' at contents `x0`, `x1` and the output's at anything, runs to the
    continuation holding the inputs as they were and the output at `out2_2 x0 x1`. -/
theorem sound_kernel2 (c : Dev nD) (E : Set ℕ) (i : grid2.Coords)
    (arg0 : Memref sig .tc .vmem S2048x64 .f32) (harg0 : arg0.IsWhole) (arg1 : Memref sig .tc .vmem S2048x64 .f32) (harg1 : arg1.IsWhole)
    (arg2 : Memref sig .tc .vmem S2048x2048 .f32) (harg2 : arg2.IsWhole)
    (x0 x1 : Vec F S2048x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__decode_kernel i arg0 harg0 arg1 harg1 arg2 harg2) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the decode pipeline on core `c`: the arrays as the region finds them; after the body at point
    `t` each reading window's buffer at its block and the output's at the product of the two blocks; the invariant the
    scoped rest and the generator register, untouched; nothing owed. The two reading windows are on ONE array, so
    each holds half of that buffer's share: the left half window 0, the right half window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the reading windows' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Share2.lean ====
/-
  The decode region reads ONE array, `z`, through two windows. Its proof data therefore hold `z`'s buffer twice, at
  the left and the right half of the share, beside the result's buffer at the full share. This module says how those
  three holdings and the core's other unscoped buffers make up the core's unscoped buffers, in both directions: at the
  region's entry the whole buffer of `z` is cut into its two halves, and at the exit the halves (still at `z`'s
  contents, a reading window never writes) are joined again, the result's buffer now at what the region left in it.
-/
import proofs.«171155_j1898375544939_1_alg».proof.Proof.Gen.KernelIdeal.Launch
import proofs.«171155_j1898375544939_1_alg».proof.Proof.Gen.KernelIdeal.Skeleton
import proofs.«171155_j1898375544939_1_alg».proof.Proof.Gen.KernelIdeal.Points
import proofs.«171155_j1898375544939_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (unscopedRest arrBufs arrRef)

/-- The decode region's windows are on two buffers: `z` (twice) and the result. -/
theorem arrImage2 : (Finset.univ.image (arrRef spec2) : Finset (Ref sig .tc)) = {main_v56, main_v57} := by decide

variable (Vd : (c : Dev nD) → (b : Ref sig .tc) → Buf (Elt F) ((c : Thread nD τ).loc b))

/-- The share the proof data hold each window's array at: the left half, the right half, and (the result) the whole. -/
theorem share2_0 (c : Dev nD) : (dat2 Vd c).share 0 = fullShare.left := by
  unfold Pipeline.Dat.share
  rw [show (cfg2.win 0).isOut = false from rfl]
  simp only [Bool.false_eq_true, ↓reduceIte]
  dsimp only [dat2]
theorem share2_1 (c : Dev nD) : (dat2 Vd c).share 1 = fullShare.right := by
  unfold Pipeline.Dat.share
  rw [show (cfg2.win 1).isOut = false from rfl]
  simp only [Bool.false_eq_true, ↓reduceIte]
  dsimp only [dat2]
theorem share2_2 (c : Dev nD) : (dat2 Vd c).share 2 = fullShare := by
  unfold Pipeline.Dat.share
  rw [show (cfg2.win 2).isOut = true from rfl]
  simp only [↓reduceIte]

/-- The three holdings of the proof data at contents `G` on `z` (both windows) and `H` on the result, beside the
    other unscoped buffers at `V`, ARE the core's unscoped buffers at any valuation `V'` that has `G` at `z`, `H` at
    the result and agrees with `V` elsewhere. -/
theorem arrays2_eq (c : Dev nD) (V V' : (b : Ref sig .tc) → Buf (Elt F) ((c : Thread nD τ).loc b))
    (Fw : (w : Fin cfg2.W) → Buf (Elt F) ((cfg2.win w).arr.view.loc (c : Thread nD τ)))
    (h0 : Fw 0 = V' (arrRef spec2 0)) (h1 : Fw 1 = V' (arrRef spec2 1)) (h2 : Fw 2 = V' (arrRef spec2 2))
    (hrest : ∀ b, b ∉ Finset.univ.image (arrRef spec2) → V' b = V b) :
    (iprop((dat2 Vd c).arrays Fw ∗ unscopedRest spec2 c V) : sProp 𝕄) = unscopedBufs c V' := by
  rw [Pipeline.unscopedBufs_split₀ cfgs 2 winFacts₀2.arr_unscoped c V']
  have hr : (unscopedRest spec2 c V : sProp 𝕄) = unscopedRest spec2 c V' := by
    unfold unscopedRest
    exact bigSep_congr fun b hb => by rw [hrest b (Finset.mem_sdiff.mp hb).2]
  rw [hr]
  refine congrArg₂ _ ?_ rfl
  unfold Pipeline.Dat.arrays arrBufs
  rw [show Finset.image (arrRef (cfgs 2).spec) Finset.univ = ({main_v56, main_v57} : Finset (Ref sig .tc)) from arrImage2, bigSep_insert (by decide), bigSep_singleton, bigSep_W2, h0, h1, h2,
    (arr_whole2 0).set_eq_univ, (arr_whole2 2).set_eq_univ]
  simp only [share2_0 Vd c, share2_1 Vd c, share2_2 Vd c]
  have hcut : (((c : Thread nD τ).loc main_v56 ↦{fullShare} V' main_v56 : sProp 𝕄))
      = iprop(((c : Thread nD τ).loc main_v56 ↦{fullShare.left} V' main_v56) ∗ ((c : Thread nD τ).loc main_v56 ↦{fullShare.right} V' main_v56)) :=
    equiv_iff.mp ⟨(pointsTo_share (PosShare.mem_left_op_right fullShare)).1, (pointsTo_share (PosShare.mem_left_op_right fullShare)).2⟩
  show (iprop((((c : Thread nD τ).loc main_v56 ↦{fullShare.left} V' main_v56)) ∗ (((c : Thread nD τ).loc main_v56 ↦{fullShare.right} V' main_v56))
      ∗ ((c : Thread nD τ).loc main_v57 ↦{fullShare} V' main_v57)) : sProp 𝕄) = _
  rw [hcut]
  exact equiv_iff.mp ⟨Idealize.SL.BI.sep_assoc', Idealize.SL.BI.sep_assoc⟩

end Cert.KernelIdeal.Hand

end
-- ==== Proof.KI.Run.lean ====
/-
  The run of the whole program, from the launch to the return, at any float instance. @main is eight items: a stretch of
  host operations (the degree normalisations and the scaled features), the first product region, three stretches (the
  edge gather and segment sum, the bias and the rectifier, the second scaling), the second product region, one more
  stretch (gather, segment sum, bias, dropout mask) and the decode region. Between two items core `c` holds every
  unscoped buffer at a named valuation: the launch contents, then each stretch's operations applied, then — after a
  region — that region's result array at what its write-backs leave and every other buffer as the region found it.
  Each region is entered by splitting its arrays out of those buffers and left by putting them back; the decode
  region's two reading windows share the array `z`, whose buffer is cut into two half shares on the way in and joined
  on the way out. The run theorem states that every weakly fair execution ends, without a fault, in a memory that has
  every unscoped buffer at the last valuation: the arguments (no item writes one) as launched, and the result at what
  the decode region left.
-/
import proofs.«171155_j1898375544939_1_alg».proof.Proof.Gen.KernelIdeal.Launch
import proofs.«171155_j1898375544939_1_alg».proof.Proof.Gen.KernelIdeal.Skeleton
import proofs.«171155_j1898375544939_1_alg».proof.Proof.Gen.KernelIdeal.Points
import proofs.«171155_j1898375544939_1_alg».proof.Proof.Gen.KernelIdeal.Regions
import proofs.«171155_j1898375544939_1_alg».proof.Proof.KI.Reg0
import proofs.«171155_j1898375544939_1_alg».proof.Proof.KI.Reg1
import proofs.«171155_j1898375544939_1_alg».proof.Proof.KI.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 (c : Dev nD) : Valuation τ sig (Elt F) := fun b => m (c, b)
/-- After the first stretch (the first region's entry). -/
abbrev B1 (c : Dev nD) : Valuation τ sig (Elt F) := StableHlo.after hostOps0 (B0 m c)
abbrev E1 : (c : Dev nD) → (b : Ref sig .tc) → Buf (Elt F) ((c : Thread nD τ).loc b) := fun c b => B1 m c b
/-- At the first region's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the three stretches between the first and the second region. -/
abbrev B3 (c : Dev nD) : Valuation τ sig (Elt F) := StableHlo.after hostOps1 (B2 m c)
abbrev B4 (c : Dev nD) : Valuation τ sig (Elt F) := StableHlo.after hostOps1_1 (B3 m c)
abbrev B5 (c : Dev nD) : Valuation τ sig (Elt F) := StableHlo.after hostOps1_2 (B4 m c)
abbrev E5 : (c : Dev nD) → (b : Ref sig .tc) → Buf (Elt F) ((c : Thread nD τ).loc b) := fun c b => B5 m c b
/-- At the second region's exit. -/
def B6 (c : Dev nD) : Valuation τ sig (Elt F) :=
  Pipeline.withArrays spec1 c (B5 m c) fun w => (dat1 (E5 m) c).arrAt w cfg1.N
theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem hF1 (c : Dev nD) (w : Fin cfg1.W) : (dat1 (E5 m) c).arrAt w cfg1.N = E6 m c (Pipeline.arrRef spec1 w) :=
  (B6_arr m c w).symm
theorem hrest1 (c : Dev nD) : ∀ b, b ∉ Finset.univ.image (Pipeline.arrRef spec1) → E6 m c b = E5 m c b :=
  fun b hb => B6_of_ne m c b fun w e => hb (Finset.mem_image.mpr ⟨w, Finset.mem_univ _, e⟩)

/-- After the last stretch (the decode region's entry). -/
abbrev B7 (c : Dev nD) : Valuation τ sig (Elt F) := StableHlo.after hostOps2 (B6 m c)
abbrev E7 : (c : Dev nD) → (b : Ref sig .tc) → Buf (Elt F) ((c : Thread nD τ).loc b) := fun c b => B7 m c b
/-- At the decode region's exit: the result's buffer at what the pipeline leaves, every other buffer (`z` among
    them: both its windows only read) as entered. -/
def B8 (c : Dev nD) : Valuation τ sig (Elt F) :=
  Function.update (B7 m c) (Proc.devRef .tc main_v57) ((dat2 (E7 m) c).arrAt 2 cfg2.N)
abbrev E8 : (c : Dev nD) → (b : Ref sig .tc) → Buf (Elt F) ((c : Thread nD τ).loc b) := fun c b => B8 m c b
theorem B8_result (c : Dev nD) : B8 m c (Proc.devRef .tc main_v57) = (dat2 (E7 m) c).arrAt 2 cfg2.N := by
  unfold B8; exact Function.update_self ..
theorem B8_of_ne (c : Dev nD) (b : Ref sig .tc) (hb : b ≠ main_v57) : B8 m c (Proc.devRef .tc b) = B7 m c (Proc.devRef .tc b) := by
  unfold B8; exact Function.update_of_ne (StableHlo.devRef_ne_of_ne hb) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the debts: every unscoped buffer at the last contents, the generator register. -/
abbrev Tₙ (c : Dev nD) : sProp 𝕄 := iprop(StableHlo.held (c : Thread nD τ) (Pipeline.ucRefs τ sig) (B8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `B1`, left at `B2`. Its arrays are
    split out of the unscoped buffers at entry and put back at the exit contents; the generator register goes into
    the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `B5`, left at `B6`. Its arrays are
    split out of the unscoped buffers at entry and put back at the exit contents; the generator register goes into
    the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The decode region over the thread state: entered from every unscoped buffer at `B7`, left at `B8`. At entry the
    buffer of `z` is cut into the two half shares its two reading windows hold; at exit the halves, still at `z`'s
    contents, are joined, and the result's buffer comes back at what the write-backs left. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit : (unscopedBufs (Ix := Unit) (Name := ℕ) (U := UR sig nD τ) (Lvl := ℕ) c (E7 m c) : sProp 𝕄)
        ⊢ iprop((pdats m 2 c).arrays ((pdats m 2 c).arrAt · 0) ∗ Pipeline.unscopedRest spec2 c (E7 m c)) :=
      Entails.of_eq (arrays2_eq (E7 m) c (E7 m c) (E7 m c) ((dat2 (E7 m) c).arrAt · 0) rfl rfl rfl (fun _ _ => rfl)).symm
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays ((pdats m 2 c).arrAt · cfg2.N) ∗ Pipeline.unscopedRest spec2 c (E7 m c)) : sProp 𝕄)
        ⊢ unscopedBufs (Ix := Unit) (Name := ℕ) (U := UR sig nD τ) (Lvl := ℕ) c (E8 m c) :=
      Entails.of_eq (arrays2_eq (E7 m) c (E7 m c) (E8 m c) ((dat2 (E7 m) c).arrAt · cfg2.N)
        (((dat2 (E7 m) c).arrAt_in 0 rfl _).trans ((A_eq2 (E7 m) c 0).trans (B8_of_ne m c _ (by decide)).symm))
        (((dat2 (E7 m) c).arrAt_in 1 rfl _).trans ((A_eq2 (E7 m) c 1).trans (B8_of_ne m c _ (by decide)).symm))
        (B8_result m c).symm
        (fun b hb => B8_of_ne m c b fun e => hb (by rw [e, arrImage2]; decide)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .host (hseg hostOps1_1 hostOps1_1_sub hostOps1_1_fresh (B3 m)),
    .host (hseg hostOps1_2 hostOps1_2_sub hostOps1_2_fresh (B4 m)),
    .region (reg1 m),
    .host (hseg hostOps2 hostOps2_sub hostOps2_fresh (B6 m)),
    .region (reg2 m) ]
/-- @main IS the run of the segments. -/
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final memory has each unscoped buffer of core `c` at `B8 m c`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun s h c => h c)

end Cert.KernelIdeal.Hand

end
-- ==== Proof.KI.Args.lean ====
/-
  No item of the program writes an argument array: no host stretch names one as a result, and a region either does not
  touch it or reads it through a reading window, whose array the write-backs never change. So the contents of an
  argument's buffer at the last boundary, walked back boundary by boundary, are the launch contents.
-/
import proofs.«171155_j1898375544939_1_alg».proof.Proof.Gen.KernelIdeal.Launch
import proofs.«171155_j1898375544939_1_alg».proof.Proof.Gen.KernelIdeal.Skeleton
import proofs.«171155_j1898375544939_1_alg».proof.Proof.Gen.KernelIdeal.Points
import proofs.«171155_j1898375544939_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A reading window's array leaves the first region as it entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
/-- A reading window's array leaves the second region as it entered. -/
theorem B6_in (c : Dev nD) (w : Fin cfg1.W) (hw : (cfg1.win w).isOut = false) :
    B6 m c (Proc.devRef .tc (Pipeline.arrRef spec1 w)) = B5 m c (Proc.devRef .tc (Pipeline.arrRef spec1 w)) :=
  (B6_arr m c w).trans (((dat1 (E5 m) c).arrAt_in w hw _).trans (A_eq1 (E5 m) c w))

/-- The stretches between the two product regions leave a buffer none of them writes. -/
theorem B5_of (c : Dev nD) (r : Ref sig .tc) (h5 : r ∉ hostOps1_2_W) (h4 : r ∉ hostOps1_1_W) (h3 : r ∉ hostOps1_W) :
    B5 m c (Proc.devRef .tc r) = B2 m c (Proc.devRef .tc r) :=
  (StableHlo.after_of_writes_sub hostOps1_2 _ hostOps1_2_writes h5).trans <|
    (StableHlo.after_of_writes_sub hostOps1_1 _ hostOps1_1_writes h4).trans <|
      StableHlo.after_of_writes_sub hostOps1 _ hostOps1_writes h3

/-- A buffer no stretch writes and no region holds as an array reaches the end as launched. -/
theorem B8_untouched (c : Dev nD) (r : Ref sig .tc) (h8 : r ≠ main_v57) (h7 : r ∉ hostOps2_W) (h6 : ∀ w, Pipeline.arrRef spec1 w ≠ r)
    (h5 : r ∉ hostOps1_2_W) (h4 : r ∉ hostOps1_1_W) (h3 : r ∉ hostOps1_W) (h2 : ∀ w, Pipeline.arrRef spec0 w ≠ r) (h1 : r ∉ hostOps0_W) :
    B8 m c (Proc.devRef .tc r) = m ((c : Thread nD τ).loc r) :=
  (B8_of_ne m c r h8).trans <| (StableHlo.after_of_writes_sub hostOps2 _ hostOps2_writes h7).trans <|
    (B6_of_ne m c r h6).trans <| (B5_of m c r h5 h4 h3).trans <| (B2_of_ne m c r h2).trans <|
      (StableHlo.after_of_writes_sub hostOps0 _ hostOps0_writes h1).trans rfl

theorem B8_main_arg0 (c : Dev nD) : B8 m c (Proc.devRef .tc main_arg0) = m ((c : Thread nD τ).loc main_arg0) :=
  B8_untouched m c main_arg0 (by decide) (by decide) (by decide) (by decide) (by decide) (by decide) (by decide) (by decide)
theorem B8_main_arg1 (c : Dev nD) : B8 m c (Proc.devRef .tc main_arg1) = m ((c : Thread nD τ).loc main_arg1) :=
  B8_untouched m c main_arg1 (by decide) (by decide) (by decide) (by decide) (by decide) (by decide) (by decide) (by decide)
theorem B8_main_arg2 (c : Dev nD) : B8 m c (Proc.devRef .tc main_arg2) = m ((c : Thread nD τ).loc main_arg2) :=
  B8_untouched m c main_arg2 (by decide) (by decide) (by decide) (by decide) (by decide) (by decide) (by decide) (by decide)
/-- The first weight is the first region's second reading window. -/
theorem B8_main_arg3 (c : Dev nD) : B8 m c (Proc.devRef .tc main_arg3) = m ((c : Thread nD τ).loc main_arg3) :=
  (B8_of_ne m c main_arg3 (by decide)).trans <| (StableHlo.after_of_writes_sub hostOps2 _ hostOps2_writes (by decide)).trans <|
    (B6_of_ne m c main_arg3 (by decide)).trans <| (B5_of m c main_arg3 (by decide) (by decide) (by decide)).trans <|
      (B2_in m c 1 rfl).trans <| (StableHlo.after_of_writes_sub hostOps0 _ hostOps0_writes (by decide)).trans rfl
theorem B8_main_arg4 (c : Dev nD) : B8 m c (Proc.devRef .tc main_arg4) = m ((c : Thread nD τ).loc main_arg4) :=
  B8_untouched m c main_arg4 (by decide) (by decide) (by decide) (by decide) (by decide) (by decide) (by decide) (by decide)
/-- The second weight is the second region's second reading window. -/
theorem B8_main_arg5 (c : Dev nD) : B8 m c (Proc.devRef .tc main_arg5) = m ((c : Thread nD τ).loc main_arg5) :=
  (B8_of_ne m c main_arg5 (by decide)).trans <| (StableHlo.after_of_writes_sub hostOps2 _ hostOps2_writes (by decide)).trans <|
    (B6_in m c 1 rfl).trans <| (B5_of m c main_arg5 (by decide) (by decide) (by decide)).trans <|
      (B2_of_ne m c main_arg5 (by decide)).trans <| (StableHlo.after_of_writes_sub hostOps0 _ hostOps0_writes (by decide)).trans rfl
theorem B8_main_arg6 (c : Dev nD) : B8 m c (Proc.devRef .tc main_arg6) = m ((c : Thread nD τ).loc main_arg6) :=
  B8_untouched m c main_arg6 (by decide) (by decide) (by decide) (by decide) (by decide) (by decide) (by decide) (by decide)
theorem B8_main_arg7 (c : Dev nD) : B8 m c (Proc.devRef .tc main_arg7) = m ((c : Thread nD τ).loc main_arg7) :=
  B8_untouched m c main_arg7 (by decide) (by decide) (by decide) (by decide) (by decide) (by decide) (by decide) (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B8_main_arg0 m c),
      (h c _ (mem_uc main_arg1 (by decide))).trans (B8_main_arg1 m c),
      (h c _ (mem_uc main_arg2 (by decide))).trans (B8_main_arg2 m c),
      (h c _ (mem_uc main_arg3 (by decide))).trans (B8_main_arg3 m c),
      (h c _ (mem_uc main_arg4 (by decide))).trans (B8_main_arg4 m c),
      (h c _ (mem_uc main_arg5 (by decide))).trans (B8_main_arg5 m c),
      (h c _ (mem_uc main_arg6 (by decide))).trans (B8_main_arg6 m c),
      (h c _ (mem_uc main_arg7 (by decide))).trans (B8_main_arg7 m c)⟩) (run_all m ρ)

/-- THE VALUE RUN: the same executions end with the result array at what the decode region left in it,
    `B8 m c` at the result's buffer, beside the unchanged arguments. -/
theorem run_value (ρ : Dev nD → PrngReg) : θ_run defs (onTc (τ := τ) (main (F := F))) ⟨m, fun _ => 0, ρ⟩ (fun r => ∀ c : Dev nD,
      r.2.mem ((c.tc : Thread nD τ).loc main_v57) = B8 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v57 (by decide)),
      (h c _ (mem_uc main_arg0 (by decide))).trans (B8_main_arg0 m c),
      (h c _ (mem_uc main_arg1 (by decide))).trans (B8_main_arg1 m c),
      (h c _ (mem_uc main_arg2 (by decide))).trans (B8_main_arg2 m c),
      (h c _ (mem_uc main_arg3 (by decide))).trans (B8_main_arg3 m c),
      (h c _ (mem_uc main_arg4 (by decide))).trans (B8_main_arg4 m c),
      (h c _ (mem_uc main_arg5 (by decide))).trans (B8_main_arg5 m c),
      (h c _ (mem_uc main_arg6 (by decide))).trans (B8_main_arg6 m c),
      (h c _ (mem_uc main_arg7 (by decide))).trans (B8_main_arg7 m c)⟩) (run_all m ρ)

end Cert.KernelIdeal.Hand

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibTransposedDot.lean ====
/-
  A matrix product M×K by N×K — the right operand contracted on its LAST axis, so that no transpose is formed — into a
  zero accumulator, read at an entry over the extended reals: entry (p, q) is the sum over c of lhs (p, c) · rhs (q, c).
  The contraction index, a one-axis multi-index, is re-indexed to its one coordinate.
-/
import Idealize.ShloMosaic.Lib.ValueIdx
import Idealize.ShloMosaic.PureOps.Ideal.Laws

namespace Cert.LibTransposedDot

open Idealize.ShloMosaic Idealize.ShloMosaic.ValueIdx

/-- The left operand's index at result entry `(p, q)` and contraction coordinate `c` is `(p, c)`. -/
theorem tr_lhsIdx (M K N : ℕ) (p : Fin M) (q : Fin N) (c : Fin K) :
    (DotDims.transposedRhs M K N).lhsIdx (ix2 p q) ((contrEquiv1 (DotDims.transposedRhs M K N) K rfl rfl).symm c) = ix2 p c := by
  funext a
  refine Fin.ext ?_
  match a with
  | ⟨0, _⟩ => rfl
  | ⟨1, _⟩ =>
    show ((DotDims.transposedRhs M K N).lhsIdx (ix2 p q) ((contrEquiv1 (DotDims.transposedRhs M K N) K rfl rfl).symm c) 1).val = c.val
    rw [(DotDims.transposedRhs M K N).lhsIdx_val_of_single (cl := 1) rfl]
    exact contrEquiv1_symm_val (DotDims.transposedRhs M K N) K rfl rfl c

/-- The right operand's index there is `(q, c)`: its rows are the result's columns. -/
theorem tr_rhsIdx (M K N : ℕ) (p : Fin M) (q : Fin N) (c : Fin K) :
    (DotDims.transposedRhs M K N).rhsIdx (ix2 p q) ((contrEquiv1 (DotDims.transposedRhs M K N) K rfl rfl).symm c) = ix2 q c := by
  funext a
  refine Fin.ext ?_
  match a with
  | ⟨0, _⟩ => rfl
  | ⟨1, _⟩ =>
    show ((DotDims.transposedRhs M K N).rhsIdx (ix2 p q) ((contrEquiv1 (DotDims.transposedRhs M K N) K rfl rfl).symm c) 1).val = c.val
    rw [(DotDims.transposedRhs M K N).rhsIdx_val_of_single (cr := 1) rfl]
    exact contrEquiv1_symm_val (DotDims.transposedRhs M K N) K rfl rfl c

/-- Entry `(p, q)` of the product into the zero accumulator is `∑ c, lhs (p, c) · rhs (q, c)`. -/
theorem matmul_transposedRhs_zero_apply {φ₁ φ₂ : FTy} (M K N : ℕ) (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ c : Fin K, lhs (ix2 p c) * rhs (ix2 q c) := by
  rw [Ideal.matmul_constant_zero_apply, ← Equiv.sum_comp (contrEquiv1 (DotDims.transposedRhs M K N) K rfl rfl).symm]
  refine Finset.sum_congr rfl fun c _ => ?_
  rw [tr_lhsIdx, tr_rhsIdx]

end Cert.LibTransposedDot
-- ==== Proof.MatmulEntries.lean ====
/-
  The three matrix products of the kernel, read at an entry over the extended reals. Each payload casts its operands
  to their own shape, changes their float format (the identity on exact values) and multiplies into a zero
  accumulator; entry (p, q) is therefore the plain sum of products over the contracted coordinate. The first two
  products contract the right operand on its first axis, the third on its last axis (no transpose is formed).
-/
import proofs.«171155_j1898375544939_1_alg».proof.Proof.Gen.KernelIdeal.Skeleton
import proofs.«171155_j1898375544939_1_alg».proof.Proof.LibPlainDot
import proofs.«171155_j1898375544939_1_alg».proof.Proof.LibTransposedDot
import Idealize.ShloMosaic.Lib.Pipeline.Value
import Idealize.ShloMosaic.Lib.ValueIdx
import Idealize.ShloMosaic.PureOps.Ideal.Laws

namespace Cert.Bridge

open Idealize.ShloMosaic

/-- The first product's dimension record is the plain 2048×512 by 512×256 one. -/
theorem dot0_eq_plain :
    Cert.KernelIdeal.dot_S2048x512_S512x256_S2048x256_1_0_0_1_n_n = DotDims.plain 2048 512 256 := rfl

/-- The second product's dimension record is the plain 2048×256 by 256×64 one. -/
theorem dot1_eq_plain :
    Cert.KernelIdeal.dot_S2048x256_S256x64_S2048x64_1_0_0_1_n_n = DotDims.plain 2048 256 64 := rfl

/-- The third product's dimension record contracts both operands on their last axis: 2048×64 by 2048×64. -/
theorem dot2_eq_transposedRhs :
    Cert.KernelIdeal.dot_S2048x64_S2048x64_S2048x2048_1_1_0_0_n_n = DotDims.transposedRhs 2048 64 2048 := rfl

/-- Entry `(p, q)` of the first product: `∑ k, x0 (p, k) · x3 (k, q)`. -/
theorem k0_pay1_apply (x0 : Vec Ideal Cert.KernelIdeal.S2048x512 .f32) (x3 : Vec Ideal Cert.KernelIdeal.S512x256 .f32)
    (p : Fin 2048) (q : Fin 256) :
    Cert.KernelIdeal.Gen.k0_pay1 (F := Ideal) x0 x3 (ValueIdx.ix2 p q)
      = ∑ k : Fin 512, x0 (ValueIdx.ix2 p k) * x3 (ValueIdx.ix2 k q) := by
  unfold Cert.KernelIdeal.Gen.k0_pay1
  rw [shapeCast_self, dot0_eq_plain]
  exact Cert.LibPlainDot.matmul_plain_zero_apply 2048 512 256 none _ _ p q

/-- Entry `(p, q)` of the second product: `∑ k, x0 (p, k) · x3 (k, q)`. -/
theorem k1_pay1_apply (x0 : Vec Ideal Cert.KernelIdeal.S2048x256 .f32) (x3 : Vec Ideal Cert.KernelIdeal.S256x64 .f32)
    (p : Fin 2048) (q : Fin 64) :
    Cert.KernelIdeal.Gen.k1_pay1 (F := Ideal) x0 x3 (ValueIdx.ix2 p q)
      = ∑ k : Fin 256, x0 (ValueIdx.ix2 p k) * x3 (ValueIdx.ix2 k q) := by
  unfold Cert.KernelIdeal.Gen.k1_pay1
  rw [shapeCast_self, dot1_eq_plain]
  exact Cert.LibPlainDot.matmul_plain_zero_apply 2048 256 64 none _ _ p q

/-- Entry `(p, q)` of the third product, whose right operand is contracted on its last axis:
    `∑ k, x0 (p, k) · x3 (q, k)`. -/
theorem k2_pay1_apply (x0 x3 : Vec Ideal Cert.KernelIdeal.S2048x64 .f32) (p q : Fin 2048) :
    Cert.KernelIdeal.Gen.k2_pay1 (F := Ideal) x0 x3 (ValueIdx.ix2 p q)
      = ∑ k : Fin 64, x0 (ValueIdx.ix2 p k) * x3 (ValueIdx.ix2 q k) := by
  unfold Cert.KernelIdeal.Gen.k2_pay1
  rw [shapeCast_self, shapeCast_self, dot2_eq_transposedRhs]
  exact Cert.LibTransposedDot.matmul_transposedRhs_zero_apply 2048 64 2048 none _ _ p q

end Cert.Bridge
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«171155_j1898375544939_1_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.RefDots.lean ====
/-
  The three matrix products of the reference, read at an entry over the extended reals. The first two are plain
  products (the right operand contracted on its first axis); the third multiplies an array by its own transpose, so
  that entry (i, j) pairs row i with row j.
-/
import proofs.«171155_j1898375544939_1_alg».proof.ReferenceIdeal
import proofs.«171155_j1898375544939_1_alg».proof.Proof.LibHostRows
import Idealize.ShloMosaic.Lib.Pipeline.Value
import Idealize.ShloMosaic.Lib.ValueIdx
import Idealize.ShloMosaic.PureOps.Ideal.Laws

namespace Cert.Bridge

open Idealize.ShloMosaic Cert.ReferenceIdeal Cert.ReferenceIdeal.Facts₀

variable [Cert.ReferenceIdeal.Facts₀]

/-- The first product's dimension record is the plain 16384×512 by 512×256 one. -/
theorem refdot0_eq_plain :
    dot_S16384x512_S512x256_S16384x256_1_0_0_1_n_n = DotDims.plain 16384 512 256 := rfl

/-- The second product's dimension record is the plain 16384×256 by 256×64 one. -/
theorem refdot1_eq_plain :
    dot_S16384x256_S256x64_S16384x64_1_0_0_1_n_n = DotDims.plain 16384 256 64 := rfl

/-- The third product's dimension record is the plain 16384×64 by 64×16384 one. -/
theorem refdot2_eq_plain :
    dot_S16384x64_S64x16384_S16384x16384_1_0_0_1_n_n = DotDims.plain 16384 64 16384 := rfl

/-- Entry `(i, q)` of the first product: `∑ k, l (i, k) · r (k, q)`. -/
theorem ref_dot0_apply (l : FVec Ideal S16384x512 .f32) (r : FVec Ideal S512x256 .f32) (i : Fin 16384) (q : Fin 256) :
    Host.dotGeneral (F := Ideal) dot_S16384x512_S512x256_S16384x256_1_0_0_1_n_n none l r (ValueIdx.ix2 i q)
      = ∑ k : Fin 512, l (ValueIdx.ix2 i k) * r (ValueIdx.ix2 k q) := by
  rw [refdot0_eq_plain]
  exact Cert.LibHostRows.dotGeneral_plain_apply 16384 512 256 none l r i q

/-- Entry `(i, q)` of the second product: `∑ k, l (i, k) · r (k, q)`. -/
theorem ref_dot1_apply (l : FVec Ideal S16384x256 .f32) (r : FVec Ideal S256x64 .f32) (i : Fin 16384) (q : Fin 64) :
    Host.dotGeneral (F := Ideal) dot_S16384x256_S256x64_S16384x64_1_0_0_1_n_n none l r (ValueIdx.ix2 i q)
      = ∑ k : Fin 256, l (ValueIdx.ix2 i k) * r (ValueIdx.ix2 k q) := by
  rw [refdot1_eq_plain]
  exact Cert.LibHostRows.dotGeneral_plain_apply 16384 256 64 none l r i q

/-- The transpose of a 16384×64 array reads, at `(k, j)`, the array at `(j, k)`. -/
theorem ref_transpose_apply {α : Type} (z : S16384x64.Idx → α) (k : Fin 64) (j : Fin 16384) :
    transpose S64x16384 [1, 0] z transposes_S16384x64_S64x16384_1_0 (ValueIdx.ix2 k j) = z (ValueIdx.ix2 j k) := by
  refine transpose_apply _ z _ (ValueIdx.ix2 k j) (ValueIdx.ix2 j k) fun b => ?_
  match b with
  | ⟨0, _⟩ => rfl
  | ⟨1, _⟩ => rfl

/-- Entry `(i, j)` of an array times its own transpose: `∑ k, z (i, k) · z (j, k)`. -/
theorem ref_decode_apply (z : FVec Ideal S16384x64 .f32) (i j : Fin 16384) :
    Host.dotGeneral (F := Ideal) dot_S16384x64_S64x16384_S16384x16384_1_0_0_1_n_n none z
        (transpose S64x16384 [1, 0] z transposes_S16384x64_S64x16384_1_0) (ValueIdx.ix2 i j)
      = ∑ k : Fin 64, z (ValueIdx.ix2 i k) * z (ValueIdx.ix2 j k) := by
  rw [refdot2_eq_plain]
  refine (Cert.LibHostRows.dotGeneral_plain_apply 16384 64 16384 none z _ i j).trans ?_
  refine Finset.sum_congr rfl fun k _ => ?_
  rw [ref_transpose_apply]

end Cert.Bridge
-- ==== Proof.KI.Val0.lean ====
/-
  The first region's result as one array. Point t of its grid of eight writes rows 2048·t … 2048·t + 2047 of the
  product: it reads row block t of the left operand and the whole right operand, and entry (p, q) of what it
  stores is the sum over the 512 contracted columns. The eight row blocks tile the 16384 rows, so after the last
  point the output array is the whole product of the two input arrays as the region finds them.
-/
import proofs.«171155_j1898375544939_1_alg».proof.Proof.KI.Reg0
import proofs.«171155_j1898375544939_1_alg».proof.Proof.MatmulEntries
import proofs.«171155_j1898375544939_1_alg».proof.Proof.RefDots
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable [Cert.ReferenceIdeal.Facts₀]
variable (V : (c : Dev nD) → (b : Ref sig .tc) → Buf (Elt Ideal) ((c : Thread nD τ).loc b))

theorem hz0 : (![0, 0] : Fin 2 → Nat) = fun _ => 0 := funext fun a => by fin_cases a <;> rfl

/-- The whole product of the region's two input arrays: entry (i, q) sums over the 512 contracted columns. -/
abbrev prod0 (c : Dev nD) : S16384x256.Idx → Elt Ideal .f32 :=
  Host.dotGeneral (F := Ideal) (φ₁ := .f32) (φ₂ := .f32)
        Cert.ReferenceIdeal.dot_S16384x512_S512x256_S16384x256_1_0_0_1_n_n none
    (V c main_v17) (V c main_arg3)

/-- The block indices over the grid: the left operand's and the output's row block is the point's number, their
    column block and both of the right operand's are zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (p, k), is the array at row 2048·t + p, column k. -/
theorem iblk0_0_apply (c : Dev nD) (t : Fin cfg0.N) (p : Fin 2048) (k : Fin 512) (i : Fin 16384)
    (hi : i.val = t.val * 2048 + p.val) :
    (iblk0 V c 0 t : Vec Ideal S2048x512 .f32) (ValueIdx.ix2 p k)
      = (V c main_v17 : S16384x512.Idx → Elt Ideal .f32) (ValueIdx.ix2 i k) := by
  obtain ⟨e0, e1, -⟩ := idx_facts0 t
  unfold iblk0
  rw [View.read_apply]
  show V c main_v17 _ = V c main_v17 _
  congr 1
  funext a
  apply Fin.ext
  match a with
  | ⟨0, _⟩ => show win0_0.index t (0 : Fin 2) * 2048 + 1 * p.val = i.val; rw [e0, hi]; omega
  | ⟨1, _⟩ => show win0_0.index t (1 : Fin 2) * 512 + 1 * k.val = k.val; rw [e1]; omega

/-- The right operand's block at any point is the whole array. -/
theorem iblk0_1_apply (c : Dev nD) (t : Fin cfg0.N) (k : Fin 512) (q : Fin 256) :
    (iblk0 V c 1 t : Vec Ideal S512x256 .f32) (ValueIdx.ix2 k q)
      = (V c main_arg3 : S512x256.Idx → Elt Ideal .f32) (ValueIdx.ix2 k q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 512 + 1 * k.val = k.val; rw [e2]; omega
  | ⟨1, _⟩ => show win0_1.index t (1 : Fin 2) * 256 + 1 * q.val = q.val; rw [e3]; omega

/-- Entry (p, q) of the output block at point t sits in the array at row 2048·t + p, column q. -/
theorem emb0_2 (t : Fin cfg0.N) (p : Fin 2048) (q : Fin 256) (i : Fin 16384) (hi : i.val = t.val * 2048 + p.val) :
    ((cfg0.win 2).blk t).view.emb (ValueIdx.ix2 p q : S2048x256.Idx) = (ValueIdx.ix2 i q : S16384x256.Idx) := by
  obtain ⟨-, -, -, -, e4, e5⟩ := idx_facts0 t
  funext a
  apply Fin.ext
  match a with
  | ⟨0, _⟩ => show win0_2.index t (0 : Fin 2) * 2048 + 1 * p.val = i.val; rw [e4, hi]; omega
  | ⟨1, _⟩ => show win0_2.index t (1 : Fin 2) * 256 + 1 * q.val = q.val; rw [e5]; omega

/-- What point t stores, at an entry of its block, is the whole product at that entry's place in the array. -/
theorem point0 (c : Dev nD) (t : Fin cfg0.N) (j : S2048x256.Idx) :
    k0_pay1 (F := Ideal) (iblk0 V c 0 t) (iblk0 V c 1 t) j = prod0 V c (((cfg0.win 2).blk t).view.emb j) := by
  obtain ⟨p, q, rfl⟩ : ∃ (p : Fin 2048) (q : Fin 256), j = ValueIdx.ix2 p q := ⟨j 0, j 1, ValueIdx.eq_ix2 j⟩
  have hN : cfg0.N = 8 := N_0
  have ht : t.val < 8 := hN ▸ t.isLt
  have hp : p.val < 2048 := p.isLt
  have hi : t.val * 2048 + p.val < 16384 := by omega
  rw [emb0_2 t p q ⟨t.val * 2048 + p.val, hi⟩ rfl]
  refine ((Cert.Bridge.k0_pay1_apply _ _ p q).trans ?_).trans
    (Cert.Bridge.ref_dot0_apply (V c main_v17) (V c main_arg3) ⟨t.val * 2048 + p.val, hi⟩ q).symm
  refine Finset.sum_congr rfl fun k _ => ?_
  rw [iblk0_0_apply V c t p k ⟨t.val * 2048 + p.val, hi⟩ rfl, iblk0_1_apply V c t k q]

/-- What point t writes back is its block of the whole product. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz0]
  simp only [View.ld_unit_zero (S := S2048x512) hz0, View.ld_unit_zero (S := S512x256) hz0]
  funext j
  exact point0 V c t j

/-- Every entry of the output array is in the block of the point that its row's block of 2048 names. -/
theorem cover0 (i : S16384x256.Idx) :
    ∃ t : Fin cfg0.N, (cfg0.win 2).flush t = true ∧ i ∈ ((cfg0.win 2).blk t).view.set := by
  have h0 : (i 0).val < 16384 := (i 0).isLt
  have h1 : (i 1).val < 256 := (i 1).isLt
  have hN : cfg0.N = 8 := N_0
  have ht : (i 0).val / 2048 < cfg0.N := by rw [hN]; omega
  obtain ⟨-, -, -, -, e4, e5⟩ := idx_facts0 ⟨(i 0).val / 2048, ht⟩
  refine ⟨⟨(i 0).val / 2048, ht⟩, flush0_2 _, ?_⟩
  show i ∈ ((View.whole main_v18).slice (win0_2.rect ⟨(i 0).val / 2048, ht⟩)).set
  rw [View.set_slice_whole, Rect.mem_set_unit]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win0_2.index ⟨(i 0).val / 2048, ht⟩ (1 : Fin 2) * 256 ≤ (i 1).val
      ∧ (i 1).val < win0_2.index ⟨(i 0).val / 2048, ht⟩ (1 : Fin 2) * 256 + 256
    rw [e5]
    omega

/-- After the last point the region's output array is the whole product of its two input arrays. -/
theorem arr0 (c : Dev nD) :
    (dat0 (F := Ideal) V c).arrAt 2 cfg0.N
      = Host.dotGeneral (F := Ideal) (φ₁ := .f32) (φ₂ := .f32)
        Cert.ReferenceIdeal.dot_S16384x512_S512x256_S16384x256_1_0_0_1_n_n none
          (V c main_v17) (V c main_arg3) :=
  (dat0 V c).arrAt_eq_of_cover 2 (prod0 V c) (fun t _ => flushed0_eq V c t) cover0

end Cert.KernelIdeal.Hand

end
-- ==== Proof.KI.Val1.lean ====
/-
  The second region's result as one array. Point t of its grid of eight writes rows 2048·t … 2048·t + 2047 of the
  product: it reads row block t of the left operand and the whole right operand, and entry (p, q) of what it
  stores is the sum over the 256 contracted columns. The eight row blocks tile the 16384 rows, so after the last
  point the output array is the whole product of the two input arrays as the region finds them.
-/
import proofs.«171155_j1898375544939_1_alg».proof.Proof.KI.Reg1
import proofs.«171155_j1898375544939_1_alg».proof.Proof.MatmulEntries
import proofs.«171155_j1898375544939_1_alg».proof.Proof.RefDots
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable [Cert.ReferenceIdeal.Facts₀]
variable (V : (c : Dev nD) → (b : Ref sig .tc) → Buf (Elt Ideal) ((c : Thread nD τ).loc b))

theorem hz1 : (![0, 0] : Fin 2 → Nat) = fun _ => 0 := funext fun a => by fin_cases a <;> rfl

/-- The whole product of the region's two input arrays: entry (i, q) sums over the 256 contracted columns. -/
abbrev prod1 (c : Dev nD) : S16384x64.Idx → Elt Ideal .f32 :=
  Host.dotGeneral (F := Ideal) (φ₁ := .f32) (φ₂ := .f32)
        Cert.ReferenceIdeal.dot_S16384x256_S256x64_S16384x64_1_0_0_1_n_n none
    (V c main_v38) (V c main_arg5)

/-- The block indices over the grid: the left operand's and the output's row block is the point's number, their
    column block and both of the right operand's are zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, at (p, k), is the array at row 2048·t + p, column k. -/
theorem iblk1_0_apply (c : Dev nD) (t : Fin cfg1.N) (p : Fin 2048) (k : Fin 256) (i : Fin 16384)
    (hi : i.val = t.val * 2048 + p.val) :
    (iblk1 V c 0 t : Vec Ideal S2048x256 .f32) (ValueIdx.ix2 p k)
      = (V c main_v38 : S16384x256.Idx → Elt Ideal .f32) (ValueIdx.ix2 i k) := by
  obtain ⟨e0, e1, -⟩ := idx_facts1 t
  unfold iblk1
  rw [View.read_apply]
  show V c main_v38 _ = V c main_v38 _
  congr 1
  funext a
  apply Fin.ext
  match a with
  | ⟨0, _⟩ => show win1_0.index t (0 : Fin 2) * 2048 + 1 * p.val = i.val; rw [e0, hi]; omega
  | ⟨1, _⟩ => show win1_0.index t (1 : Fin 2) * 256 + 1 * k.val = k.val; rw [e1]; omega

/-- The right operand's block at any point is the whole array. -/
theorem iblk1_1_apply (c : Dev nD) (t : Fin cfg1.N) (k : Fin 256) (q : Fin 64) :
    (iblk1 V c 1 t : Vec Ideal S256x64 .f32) (ValueIdx.ix2 k q)
      = (V c main_arg5 : S256x64.Idx → Elt Ideal .f32) (ValueIdx.ix2 k q) := by
  obtain ⟨-, -, e2, e3, -⟩ := idx_facts1 t
  unfold iblk1
  rw [View.read_apply]
  show V c main_arg5 _ = V c main_arg5 _
  congr 1
  funext a
  apply Fin.ext
  match a with
  | ⟨0, _⟩ => show win1_1.index t (0 : Fin 2) * 256 + 1 * k.val = k.val; rw [e2]; omega
  | ⟨1, _⟩ => show win1_1.index t (1 : Fin 2) * 64 + 1 * q.val = q.val; rw [e3]; omega

/-- Entry (p, q) of the output block at point t sits in the array at row 2048·t + p, column q. -/
theorem emb1_2 (t : Fin cfg1.N) (p : Fin 2048) (q : Fin 64) (i : Fin 16384) (hi : i.val = t.val * 2048 + p.val) :
    ((cfg1.win 2).blk t).view.emb (ValueIdx.ix2 p q : S2048x64.Idx) = (ValueIdx.ix2 i q : S16384x64.Idx) := by
  obtain ⟨-, -, -, -, e4, e5⟩ := idx_facts1 t
  funext a
  apply Fin.ext
  match a with
  | ⟨0, _⟩ => show win1_2.index t (0 : Fin 2) * 2048 + 1 * p.val = i.val; rw [e4, hi]; omega
  | ⟨1, _⟩ => show win1_2.index t (1 : Fin 2) * 64 + 1 * q.val = q.val; rw [e5]; omega

/-- What point t stores, at an entry of its block, is the whole product at that entry's place in the array. -/
theorem point1 (c : Dev nD) (t : Fin cfg1.N) (j : S2048x64.Idx) :
    k1_pay1 (F := Ideal) (iblk1 V c 0 t) (iblk1 V c 1 t) j = prod1 V c (((cfg1.win 2).blk t).view.emb j) := by
  obtain ⟨p, q, rfl⟩ : ∃ (p : Fin 2048) (q : Fin 64), j = ValueIdx.ix2 p q := ⟨j 0, j 1, ValueIdx.eq_ix2 j⟩
  have hN : cfg1.N = 8 := N_1
  have ht : t.val < 8 := hN ▸ t.isLt
  have hp : p.val < 2048 := p.isLt
  have hi : t.val * 2048 + p.val < 16384 := by omega
  rw [emb1_2 t p q ⟨t.val * 2048 + p.val, hi⟩ rfl]
  refine ((Cert.Bridge.k1_pay1_apply _ _ p q).trans ?_).trans
    (Cert.Bridge.ref_dot1_apply (V c main_v38) (V c main_arg5) ⟨t.val * 2048 + p.val, hi⟩ q).symm
  refine Finset.sum_congr rfl fun k _ => ?_
  rw [iblk1_0_apply V c t p k ⟨t.val * 2048 + p.val, hi⟩ rfl, iblk1_1_apply V c t k q]

/-- What point t writes back is its block of the whole product. -/
theorem flushed1_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz1]
  simp only [View.ld_unit_zero (S := S2048x256) hz1, View.ld_unit_zero (S := S256x64) hz1]
  funext j
  exact point1 V c t j

/-- Every entry of the output array is in the block of the point that its row's block of 2048 names. -/
theorem cover1 (i : S16384x64.Idx) :
    ∃ t : Fin cfg1.N, (cfg1.win 2).flush t = true ∧ i ∈ ((cfg1.win 2).blk t).view.set := by
  have h0 : (i 0).val < 16384 := (i 0).isLt
  have h1 : (i 1).val < 64 := (i 1).isLt
  have hN : cfg1.N = 8 := N_1
  have ht : (i 0).val / 2048 < cfg1.N := by rw [hN]; omega
  obtain ⟨-, -, -, -, e4, e5⟩ := idx_facts1 ⟨(i 0).val / 2048, ht⟩
  refine ⟨⟨(i 0).val / 2048, ht⟩, flush1_2 _, ?_⟩
  show i ∈ ((View.whole main_v39).slice (win1_2.rect ⟨(i 0).val / 2048, ht⟩)).set
  rw [View.set_slice_whole, Rect.mem_set_unit]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win1_2.index ⟨(i 0).val / 2048, ht⟩ (1 : Fin 2) * 64 ≤ (i 1).val
      ∧ (i 1).val < win1_2.index ⟨(i 0).val / 2048, ht⟩ (1 : Fin 2) * 64 + 64
    rw [e5]
    omega

/-- After the last point the region's output array is the whole product of its two input arrays. -/
theorem arr1 (c : Dev nD) :
    (dat1 (F := Ideal) V c).arrAt 2 cfg1.N
      = Host.dotGeneral (F := Ideal) (φ₁ := .f32) (φ₂ := .f32)
        Cert.ReferenceIdeal.dot_S16384x256_S256x64_S16384x64_1_0_0_1_n_n none
          (V c main_v38) (V c main_arg5) :=
  (dat1 V c).arrAt_eq_of_cover 2 (prod1 V c) (fun t _ => flushed1_eq V c t) cover1

end Cert.KernelIdeal.Hand

end
-- ==== Proof.KI.Val2.lean ====
/-
  The third region's result array as one function of the array it reads. The region runs over an 8 × 8 grid; point
  t = 8·a + b reads row block a (rows 2048·a … 2048·a + 2047) of the array `z` through its first window, row block b
  of the SAME array through its second, and writes block (a, b) of the result. Each written block is the product of
  the two row blocks contracted over their 64 columns, so entry (i, j) of the whole result is `∑ k, z (i, k) · z (j, k)`;
  the 64 blocks tile the 16384 × 16384 result, and that function is the reference's product of `z` with its transpose.
-/
import proofs.«171155_j1898375544939_1_alg».proof.Proof.KI.Reg2
import proofs.«171155_j1898375544939_1_alg».proof.Proof.MatmulEntries
import proofs.«171155_j1898375544939_1_alg».proof.Proof.RefDots
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable [Cert.ReferenceIdeal.Facts₀]
variable (V : (c : Dev nD) → (b : Ref sig .tc) → Buf (Elt Ideal) ((c : Thread nD τ).loc b))

/-! ## The grid's index maps -/

/-- The zero offsets of a whole-buffer rectangle, as a constant function. -/
theorem hz2 : (![0, 0] : Fin 2 → Nat) = fun _ => 0 := funext fun a => by fin_cases a <;> rfl

/-- The three windows' block indices at point `t`, decided over the 64 points: the first window is at row block
    `t / 8`, the second at row block `t % 8`, the result at block `(t / 8, t % 8)`; no window moves along the columns
    of `z`. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-! ## The whole result as a function of the array -/

/-- Entry `(i, j)` of the result: row `i` of `z` against row `j` of `z`, summed over the 64 columns. -/
def G2 (z : Vec Ideal S16384x64 .f32) : Vec Ideal S16384x16384 .f32 :=
  fun i => ∑ k : Fin 64, z (ix2 (i 0) k) * z (ix2 (i 1) k)

theorem G2_apply (z : Vec Ideal S16384x64 .f32) (p q : Fin 16384) :
    G2 z (ix2 p q) = ∑ k : Fin 64, z (ix2 p k) * z (ix2 q k) := rfl

/-- One entry of a block product, for any two blocks whose rows `p` and `q` are rows `P` and `Q` of `z`: it is
    entry `(P, Q)` of the whole result. -/
theorem block_entry2 (x0 x1 : Vec Ideal S2048x64 .f32) (z : Vec Ideal S16384x64 .f32)
    (p q : Fin 2048) (P Q : Fin 16384)
    (h0 : ∀ k : Fin 64, x0 (ix2 p k) = z (ix2 P k)) (h1 : ∀ k : Fin 64, x1 (ix2 q k) = z (ix2 Q k)) :
    k2_pay1 (F := Ideal) x0 x1 (ix2 p q) = G2 z (ix2 P Q) := by
  rw [Cert.Bridge.k2_pay1_apply, G2_apply]
  exact Finset.sum_congr rfl fun k _ => by rw [h0, h1]

/-! ## The input blocks as rows of the array -/

/-- An element of the first window's block at point `t` is the array's element at, on each axis, the block index
    times the block's extent plus the coordinate inside the block. -/
theorem iblk2_0_apply (c : Dev nD) (t : Fin cfg2.N) (x : S2048x64.Idx) (k : S16384x64.Idx)
    (hk0 : (k 0).val = win2_0.index t 0 * 2048 + (x 0).val) (hk1 : (k 1).val = win2_0.index t 1 * 64 + (x 1).val) :
    (iblk2 V c 0 t : Vec Ideal S2048x64 .f32) x = (V c main_v56 : Vec Ideal S16384x64 .f32) k := by
  unfold iblk2
  rw [View.read_apply]
  show V c main_v56 _ = V c main_v56 _
  congr 1
  funext a
  apply Fin.ext
  match a with
  | ⟨0, _⟩ => show win2_0.index t 0 * 2048 + 1 * (x 0).val = (k 0).val; omega
  | ⟨1, _⟩ => show win2_0.index t 1 * 64 + 1 * (x 1).val = (k 1).val; omega

/-- The same for the second window, which reads the same array. -/
theorem iblk2_1_apply (c : Dev nD) (t : Fin cfg2.N) (x : S2048x64.Idx) (k : S16384x64.Idx)
    (hk0 : (k 0).val = win2_1.index t 0 * 2048 + (x 0).val) (hk1 : (k 1).val = win2_1.index t 1 * 64 + (x 1).val) :
    (iblk2 V c 1 t : Vec Ideal S2048x64 .f32) x = (V c main_v56 : Vec Ideal S16384x64 .f32) k := by
  unfold iblk2
  rw [View.read_apply]
  show V c main_v56 _ = V c main_v56 _
  congr 1
  funext a
  apply Fin.ext
  match a with
  | ⟨0, _⟩ => show win2_1.index t 0 * 2048 + 1 * (x 0).val = (k 0).val; omega
  | ⟨1, _⟩ => show win2_1.index t 1 * 64 + 1 * (x 1).val = (k 1).val; omega

/-! ## What each point writes back -/

/-- What point `t` writes back is block `t` of `G2 z`: entry `(p, q)` of the block product pairs row
    `2048·(t / 8) + p` of `z` with row `2048·(t % 8) + q`, and that is where block `(t / 8, t % 8)` of the result puts
    its entry `(p, q)`. -/
theorem flushed2_eq (c : Dev nD) (t : Fin cfg2.N) :
    (dat2 V c).flushed 2 t = ((cfg2.win 2).blk t).view.read (Elt Ideal) (G2 (V c main_v56)) := by
  show (cfg2.win 2).cut (grid2.coords t) ((dat2 V c).after 2 t) = _
  rw [after2_2]
  unfold out2_2
  rw [View.canon_unit_zero hz2]
  simp only [View.ld_unit_zero (S := S2048x64) hz2]
  obtain ⟨e00, e01, e10, e11, e20, e21⟩ := idx_facts2 t
  have hN : cfg2.N = 64 := N_2
  have ht : t.val < 64 := hN ▸ t.isLt
  funext j
  obtain ⟨p, q, rfl⟩ : ∃ (p q : Fin 2048), j = ix2 p q := ⟨j 0, j 1, eq_ix2 j⟩
  show k2_pay1 (F := Ideal) (iblk2 V c 0 t) (iblk2 V c 1 t) (ix2 p q) = G2 (V c main_v56) (((cfg2.win 2).blk t).view.emb (ix2 p q))
  have hP : t.val / 8 * 2048 + p.val < 16384 := by have := p.isLt; omega
  have hQ : t.val % 8 * 2048 + q.val < 16384 := by have := q.isLt; omega
  have hemb : ((cfg2.win 2).blk t).view.emb (ix2 p q) = ix2 (⟨t.val / 8 * 2048 + p.val, hP⟩ : Fin 16384) (⟨t.val % 8 * 2048 + q.val, hQ⟩ : Fin 16384) := by
    funext a; apply Fin.ext
    match a with
    | ⟨0, _⟩ => show win2_2.index t (0 : Fin 2) * 2048 + 1 * p.val = t.val / 8 * 2048 + p.val; omega
    | ⟨1, _⟩ => show win2_2.index t (1 : Fin 2) * 2048 + 1 * q.val = t.val % 8 * 2048 + q.val; omega
  rw [hemb]
  refine block_entry2 _ _ _ p q _ _ (fun k => ?_) (fun k => ?_)
  · refine iblk2_0_apply V c t _ _ ?_ ?_
    · show t.val / 8 * 2048 + p.val = win2_0.index t 0 * 2048 + p.val; omega
    · show k.val = win2_0.index t 1 * 64 + k.val; omega
  · refine iblk2_1_apply V c t _ _ ?_ ?_
    · show t.val % 8 * 2048 + q.val = win2_1.index t 0 * 2048 + q.val; omega
    · show k.val = win2_1.index t 1 * 64 + k.val; omega

/-! ## The blocks tile the result -/

/-- An index of the result is in point `t`'s block iff each coordinate is in the block's range on its axis. -/
theorem mem_blk2 (t : Fin cfg2.N) (i : S16384x16384.Idx) :
    i ∈ ((cfg2.win 2).blk t).view.set ↔ ∀ a : Fin 2, win2_2.index t a * S2048x2048.size a ≤ (i a).val ∧ (i a).val < win2_2.index t a * S2048x2048.size a + S2048x2048.size a := by
  show i ∈ ((View.whole main_v57).slice (win2_2.rect t)).set ↔ _
  rw [View.set_slice_whole, Rect.mem_set_unit]
  exact Iff.rfl

/-- Every index `(i, j)` of the result is in the block of the point `8·(i / 2048) + j / 2048`, which writes back. -/
theorem cover2 (i : S16384x16384.Idx) : ∃ t : Fin cfg2.N, (cfg2.win 2).flush t = true ∧ i ∈ ((cfg2.win 2).blk t).view.set := by
  have hN : cfg2.N = 64 := N_2
  have hi0 : (i 0).val < 16384 := (i 0).isLt
  have hi1 : (i 1).val < 16384 := (i 1).isLt
  refine ⟨⟨8 * ((i 0).val / 2048) + (i 1).val / 2048, by rw [hN]; omega⟩, flush2_2 _, ?_⟩
  rw [mem_blk2]
  obtain ⟨-, -, -, -, e20, e21⟩ := idx_facts2 ⟨8 * ((i 0).val / 2048) + (i 1).val / 2048, by rw [hN]; omega⟩
  intro a
  match a with
  | ⟨0, _⟩ =>
    show win2_2.index _ (0 : Fin 2) * 2048 ≤ (i 0).val ∧ (i 0).val < win2_2.index _ (0 : Fin 2) * 2048 + 2048
    rw [e20]; show (8 * ((i 0).val / 2048) + (i 1).val / 2048) / 8 * 2048 ≤ (i 0).val ∧ (i 0).val < (8 * ((i 0).val / 2048) + (i 1).val / 2048) / 8 * 2048 + 2048
    omega
  | ⟨1, _⟩ =>
    show win2_2.index _ (1 : Fin 2) * 2048 ≤ (i 1).val ∧ (i 1).val < win2_2.index _ (1 : Fin 2) * 2048 + 2048
    rw [e21]; show (8 * ((i 0).val / 2048) + (i 1).val / 2048) % 8 * 2048 ≤ (i 1).val ∧ (i 1).val < (8 * ((i 0).val / 2048) + (i 1).val / 2048) % 8 * 2048 + 2048
    omega

/-! ## The result array after the region -/

/-- After all 64 points the result array holds `G2 z`. -/
theorem final2 (c : Dev nD) : (dat2 V c).arrAt 2 cfg2.N = G2 (V c main_v56) :=
  (dat2 V c).arrAt_eq_of_cover 2 (G2 (V c main_v56)) (fun t _ => flushed2_eq V c t) cover2

/-- The result array after the region is the reference's product of the array with its own transpose. -/
theorem arr2 (c : Dev nD) :
    (dat2 (F := Ideal) V c).arrAt 2 cfg2.N = Host.dotGeneral (F := Ideal) (φ₁ := .f32) (φ₂ := .f32) Cert.ReferenceIdeal.dot_S16384x64_S64x16384_S16384x16384_1_0_0_1_n_n none (V c main_v56)
        (transpose (s := Cert.ReferenceIdeal.S16384x64) (α := Ideal .f32) Cert.ReferenceIdeal.S64x16384 [1, 0] (V c main_v56) Cert.ReferenceIdeal.Facts₀.transposes_S16384x64_S64x16384_1_0) := by
  rw [final2]
  funext i
  obtain ⟨p, q, rfl⟩ : ∃ (p q : Fin 16384), i = ix2 p q := ⟨i 0, i 1, eq_ix2 i⟩
  rw [G2_apply]
  exact (Cert.Bridge.ref_decode_apply (V c main_v56) p q).symm

end Cert.KernelIdeal.Hand

end
-- ==== Proof.KI.Chain.lean ====
/-
  The host operations between the three matrix products, read as pure functions of the buffers they start from.
  A graph convolution normalises by degree: a list of 524288 segment ids gives each of the 16384 nodes a count, and
  the normalisation is max(count, 1) to the power −1/2. The first stretch scales the features' rows by the
  normalisation of the first id list. After the first product, the second stretch gathers the product's rows along
  the first id list (a negative id wraps round by 16384), sums them into the rows the second id list names, scales
  the rows by the second list's normalisation, adds the bias, rectifies, and scales the rows by the first list's
  normalisation. After the second product, the third stretch gathers, sums and scales in the same way, adds its bias
  and multiplies by a mask. Each stretch leaves every buffer it does not write as it found it.
-/
import proofs.«171155_j1898375544939_1_alg».proof.Proof.Gen.KernelIdeal.Launch
import proofs.«171155_j1898375544939_1_alg».proof.Proof.Gen.KernelIdeal.Regions
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Cert.KernelIdeal Cert.KernelIdeal.Gen

section Chains

variable {F : FTy → Type} [FloatOps F]

/-- The degree normalisation of a list of segment ids: each node's count of the ids naming it, at least one, to
    the power −1/2. -/
def degNorm (ids : (⟨S524288, .i32⟩ : BufTy).Contents (Elt F)) : (⟨S16384, .f32⟩ : BufTy).Contents (Elt F) :=
  Host.powf
    (maximumf
      (Host.scatterAdd scatter_S16384_S524288x1_S524288_n_0_0_1
        (broadcastInDim S16384 ![] bcast_S_S16384 (constant (F := F) S_ .f32 0x00000000#32))
        (broadcastInDim S524288x1 ![0] bcast_S524288_S524288x1_0 ids)
        (broadcastInDim S524288 ![] bcast_S_S524288 (constant (F := F) S_ .f32 0x3F800000#32)))
      (broadcastInDim S16384 ![] bcast_S_S16384 (constant (F := F) S_ .f32 0x3F800000#32)))
    (broadcastInDim S16384 ![] bcast_S_S16384 (constant (F := F) S_ .f32 0xBF000000#32))

/-- The features with each row scaled by the normalisation of the first id list. -/
def scaledFeatures (x : (⟨S16384x512, .f32⟩ : BufTy).Contents (Elt F)) (ids : (⟨S524288, .i32⟩ : BufTy).Contents (Elt F)) :
    (⟨S16384x512, .f32⟩ : BufTy).Contents (Elt F) :=
  mulf x
    (broadcastInDim S16384x512 ![0, 1] bcast_S16384x1_S16384x512_0_1
      (broadcastInDim S16384x1 ![0] bcast_S16384_S16384x1_0 (degNorm ids)))

/-- The gather indices: an id list with its negative entries wrapped round by 16384. -/
def wrapIds (ids : (⟨S524288, .i32⟩ : BufTy).Contents (Elt F)) : (⟨S524288x1, .i32⟩ : BufTy).Contents (Elt F) :=
  broadcastInDim S524288x1 ![0] bcast_S524288_S524288x1_0
    (select (cmpi .slt ids (broadcastInDim S524288 ![] bcast_S_S524288 (constantI S_ 32 0#32)))
      (addi ids (broadcastInDim S524288 ![] bcast_S_S524288 (constantI S_ 32 16384#32)))
      ids)

/-- The first layer after its product `p`: rows gathered along `src`, summed into the rows `dst` names, scaled by
    `nDst`, the bias added, rectified, scaled by `nSrc`. -/
def layer1 (p : (⟨S16384x256, .f32⟩ : BufTy).Contents (Elt F)) (src dst : (⟨S524288, .i32⟩ : BufTy).Contents (Elt F))
    (nSrc nDst : (⟨S16384, .f32⟩ : BufTy).Contents (Elt F)) (bias : (⟨S256, .f32⟩ : BufTy).Contents (Elt F)) :
    (⟨S16384x256, .f32⟩ : BufTy).Contents (Elt F) :=
  mulf
    (maximumf
      (addf
        (mulf
          (Host.scatterAdd scatter_S16384x256_S524288x1_S524288x256_1_0_0_1
            (broadcastInDim S16384x256 ![] bcast_S_S16384x256 (constant (F := F) S_ .f32 0x00000000#32))
            (broadcastInDim S524288x1 ![0] bcast_S524288_S524288x1_0 dst)
            (Host.gather gather_S16384x256_S524288x1_S524288x256_1_0_n_n_0_1_1256 p (wrapIds src)))
          (broadcastInDim S16384x256 ![0, 1] bcast_S16384x1_S16384x256_0_1
            (broadcastInDim S16384x1 ![0] bcast_S16384_S16384x1_0 nDst)))
        (broadcastInDim S16384x256 ![0, 1] bcast_S1x256_S16384x256_0_1
          (broadcastInDim S1x256 ![1] bcast_S256_S1x256_1 bias)))
      (broadcastInDim S16384x256 ![] bcast_S_S16384x256 (constant (F := F) S_ .f32 0x00000000#32)))
    (broadcastInDim S16384x256 ![0, 1] bcast_S16384x1_S16384x256_0_1
      (broadcastInDim S16384x1 ![0] bcast_S16384_S16384x1_0 nSrc))

/-- The second layer after its product `p`: rows gathered along `src`, summed into the rows `dst` names, scaled by
    `nDst`, the bias added, multiplied by the mask. -/
def layer2 (p : (⟨S16384x64, .f32⟩ : BufTy).Contents (Elt F)) (src dst : (⟨S524288, .i32⟩ : BufTy).Contents (Elt F))
    (nDst : (⟨S16384, .f32⟩ : BufTy).Contents (Elt F)) (bias : (⟨S64, .f32⟩ : BufTy).Contents (Elt F))
    (mask : (⟨S16384x64, .f32⟩ : BufTy).Contents (Elt F)) : (⟨S16384x64, .f32⟩ : BufTy).Contents (Elt F) :=
  mulf
    (addf
      (mulf
        (Host.scatterAdd scatter_S16384x64_S524288x1_S524288x64_1_0_0_1
          (broadcastInDim S16384x64 ![] bcast_S_S16384x64 (constant (F := F) S_ .f32 0x00000000#32))
          (broadcastInDim S524288x1 ![0] bcast_S524288_S524288x1_0 dst)
          (Host.gather gather_S16384x64_S524288x1_S524288x64_1_0_n_n_0_1_164 p (wrapIds src)))
        (broadcastInDim S16384x64 ![0, 1] bcast_S16384x1_S16384x64_0_1
          (broadcastInDim S16384x1 ![0] bcast_S16384_S16384x1_0 nDst)))
      (broadcastInDim S16384x64 ![0, 1] bcast_S1x64_S16384x64_0_1
        (broadcastInDim S1x64 ![1] bcast_S64_S1x64_1 bias)))
    mask

end Chains

variable (W : Valuation τ sig (Elt Ideal))

/-! ## What each stretch writes -/

/-- The first stretch leaves the first id list's normalisation in `main_v10`, -/
theorem hostOps0_v10 : StableHlo.after hostOps0 W main_v10 = degNorm (F := Ideal) (W main_arg1) := by
  after_results
  rfl

/-- the second id list's in `main_v14`, -/
theorem hostOps0_v14 : StableHlo.after hostOps0 W main_v14 = degNorm (F := Ideal) (W main_arg2) := by
  after_results
  rfl

/-- and the scaled features in `main_v17`. -/
theorem hostOps0_v17 : StableHlo.after hostOps0 W main_v17 = scaledFeatures (F := Ideal) (W main_arg0) (W main_arg1) := by
  after_results
  rfl

set_option maxHeartbeats 2000000 in
/-- The three stretches between the first and the second product leave the first layer of the first product. -/
theorem hostOps1_v38 :
    StableHlo.after hostOps1_2 (StableHlo.after hostOps1_1 (StableHlo.after hostOps1 W)) main_v38
      = layer1 (F := Ideal) (W main_v18) (W main_arg1) (W main_arg2) (W main_v10) (W main_v14) (W main_arg4) := by
  after_results_simp
  rfl

set_option maxHeartbeats 2000000 in
/-- The stretch between the second and the third product leaves the second layer of the second product. -/
theorem hostOps2_v56 :
    StableHlo.after hostOps2 W main_v56
      = layer2 (F := Ideal) (W main_v39) (W main_arg1) (W main_arg2) (W main_v14) (W main_arg6) (W main_arg7) := by
  after_results_simp
  rfl

/-! ## What each stretch leaves alone -/

theorem hostOps0_keeps (r : Ref sig .tc) (h : r ∉ hostOps0_W) : StableHlo.after hostOps0 W r = W r :=
  StableHlo.after_of_writes_sub hostOps0 W hostOps0_writes h

theorem hostOps1_keeps (r : Ref sig .tc) (h : r ∉ hostOps1_W) : StableHlo.after hostOps1 W r = W r :=
  StableHlo.after_of_writes_sub hostOps1 W hostOps1_writes h

theorem hostOps1_1_keeps (r : Ref sig .tc) (h : r ∉ hostOps1_1_W) : StableHlo.after hostOps1_1 W r = W r :=
  StableHlo.after_of_writes_sub hostOps1_1 W hostOps1_1_writes h

theorem hostOps1_2_keeps (r : Ref sig .tc) (h : r ∉ hostOps1_2_W) : StableHlo.after hostOps1_2 W r = W r :=
  StableHlo.after_of_writes_sub hostOps1_2 W hostOps1_2_writes h

theorem hostOps2_keeps (r : Ref sig .tc) (h : r ∉ hostOps2_W) : StableHlo.after hostOps2 W r = W r :=
  StableHlo.after_of_writes_sub hostOps2 W hostOps2_writes h

end Cert.KernelIdeal.Hand

end
-- ==== Proof.KI.Value.lean ====
/-
  The kernel's result and the reference's are one term. The kernel runs three regions among shared host
  operations; each region's output array is the whole matrix product of what the stretch before it left
  (the per-region lemmas), each stretch is a pure function of the buffers it starts from and leaves the rest alone
  (the host chains), so the result buffer after the last region is one composition of the eight argument arrays at
  launch. The reference's composed term is the same composition by unfolding. From memories that agree on the
  arguments the two are therefore equal.
-/
import proofs.«171155_j1898375544939_1_alg».proof.Proof.KI.Run
import proofs.«171155_j1898375544939_1_alg».proof.Proof.KI.Val0
import proofs.«171155_j1898375544939_1_alg».proof.Proof.KI.Val1
import proofs.«171155_j1898375544939_1_alg».proof.Proof.KI.Val2
import proofs.«171155_j1898375544939_1_alg».proof.Proof.KI.Chain
import proofs.«171155_j1898375544939_1_alg».proof.Proof.Gen.ReferenceIdeal.Run

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen

/-- An array times its own transpose. -/
def secondProduct (z : (⟨S16384x64, .f32⟩ : BufTy).Contents (Elt Ideal)) : (⟨S16384x16384, .f32⟩ : BufTy).Contents (Elt Ideal) :=
  Host.dotGeneral (F := Ideal) (φ₁ := .f32) (φ₂ := .f32)
    Cert.ReferenceIdeal.dot_S16384x64_S64x16384_S16384x16384_1_0_0_1_n_n none z
    (transpose (s := Cert.ReferenceIdeal.S16384x64) (α := Ideal .f32) Cert.ReferenceIdeal.S64x16384 [1, 0] z
      Cert.ReferenceIdeal.Facts₀.transposes_S16384x64_S64x16384_1_0)

/-- The whole computation as one function of the eight argument arrays: the three products with the host chains
    between them, the last product of the second layer's result with its own transpose. -/
def composed (a0 : (⟨S16384x512, .f32⟩ : BufTy).Contents (Elt Ideal)) (a1 a2 : (⟨S524288, .i32⟩ : BufTy).Contents (Elt Ideal))
    (a3 : (⟨S512x256, .f32⟩ : BufTy).Contents (Elt Ideal)) (a4 : (⟨S256, .f32⟩ : BufTy).Contents (Elt Ideal))
    (a5 : (⟨S256x64, .f32⟩ : BufTy).Contents (Elt Ideal)) (a6 : (⟨S64, .f32⟩ : BufTy).Contents (Elt Ideal))
    (a7 : (⟨S16384x64, .f32⟩ : BufTy).Contents (Elt Ideal)) : (⟨S16384x16384, .f32⟩ : BufTy).Contents (Elt Ideal) :=
  secondProduct
    (layer2 (F := Ideal)
      (Host.dotGeneral (F := Ideal) (φ₁ := .f32) (φ₂ := .f32)
        Cert.ReferenceIdeal.dot_S16384x256_S256x64_S16384x64_1_0_0_1_n_n none
        (layer1 (F := Ideal)
          (Host.dotGeneral (F := Ideal) (φ₁ := .f32) (φ₂ := .f32)
            Cert.ReferenceIdeal.dot_S16384x512_S512x256_S16384x256_1_0_0_1_n_n none
            (scaledFeatures (F := Ideal) a0 a1) a3)
          a1 a2 (degNorm (F := Ideal) a1) (degNorm (F := Ideal) a2) a4)
        a5)
      a1 a2 (degNorm (F := Ideal) a2) a6 a7)

/-! ## The kernel's result as the composition -/

section KernelSide

variable (m : (ℓ : Loc nD τ sig) → Buf (Elt Ideal) ℓ) (c : Dev nD)

set_option maxHeartbeats 2000000 in
/-- The kernel's result buffer after its last region is the composition of its eight argument arrays at launch:
    each region's array is the whole product of what the stretch before it left, and the stretches leave the
    argument arrays and the two normalisations alone. -/
theorem kernel_eq_composed :
    B8 (F := Ideal) m c (Proc.devRef .tc main_v57)
      = composed (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  -- what each boundary keeps of the one before
  have k1 : ∀ r : Ref sig .tc, r ∉ hostOps0_W → B1 m c (Proc.devRef .tc r) = B0 m c (Proc.devRef .tc r) :=
    fun r h => hostOps0_keeps (B0 m c) r h
  have k2 : ∀ r : Ref sig .tc, (∀ w, Pipeline.arrRef spec0 w ≠ r) → B2 m c (Proc.devRef .tc r) = B1 m c (Proc.devRef .tc r) :=
    B2_of_ne m c
  have k5 : ∀ r : Ref sig .tc, r ∉ hostOps1_W → r ∉ hostOps1_1_W → r ∉ hostOps1_2_W →
      B5 m c (Proc.devRef .tc r) = B2 m c (Proc.devRef .tc r) := fun r h1 h2 h3 =>
    ((hostOps1_2_keeps (B4 m c) r h3).trans (hostOps1_1_keeps (B3 m c) r h2)).trans (hostOps1_keeps (B2 m c) r h1)
  have k6 : ∀ r : Ref sig .tc, (∀ w, Pipeline.arrRef spec1 w ≠ r) → B6 m c (Proc.devRef .tc r) = B5 m c (Proc.devRef .tc r) :=
    B6_of_ne m c
  -- the first stretch and the first region
  have s17 : E1 m c main_v17 = scaledFeatures (F := Ideal) (m ((c : Thread nD τ).loc main_arg0)) (m ((c : Thread nD τ).loc main_arg1)) :=
    hostOps0_v17 (B0 m c)
  have s3 : E1 m c main_arg3 = m ((c : Thread nD τ).loc main_arg3) := k1 main_arg3 (by decide)
  have p0 : B2 m c (Proc.devRef .tc main_v18) = Host.dotGeneral (F := Ideal) (φ₁ := .f32) (φ₂ := .f32)
      Cert.ReferenceIdeal.dot_S16384x512_S512x256_S16384x256_1_0_0_1_n_n none
      (scaledFeatures (F := Ideal) (m ((c : Thread nD τ).loc main_arg0)) (m ((c : Thread nD τ).loc main_arg1)))
      (m ((c : Thread nD τ).loc main_arg3)) := by
    refine (B2_arr m c 2).trans ?_
    rw [arr0 (E1 m) c, s17, s3]
  -- what the stretches after the first region read
  have b2_a1 : B2 m c (Proc.devRef .tc main_arg1) = m ((c : Thread nD τ).loc main_arg1) :=
    (k2 main_arg1 (by decide)).trans (k1 main_arg1 (by decide))
  have b2_a2 : B2 m c (Proc.devRef .tc main_arg2) = m ((c : Thread nD τ).loc main_arg2) :=
    (k2 main_arg2 (by decide)).trans (k1 main_arg2 (by decide))
  have b2_a4 : B2 m c (Proc.devRef .tc main_arg4) = m ((c : Thread nD τ).loc main_arg4) :=
    (k2 main_arg4 (by decide)).trans (k1 main_arg4 (by decide))
  have b2_a5 : B2 m c (Proc.devRef .tc main_arg5) = m ((c : Thread nD τ).loc main_arg5) :=
    (k2 main_arg5 (by decide)).trans (k1 main_arg5 (by decide))
  have b2_a6 : B2 m c (Proc.devRef .tc main_arg6) = m ((c : Thread nD τ).loc main_arg6) :=
    (k2 main_arg6 (by decide)).trans (k1 main_arg6 (by decide))
  have b2_a7 : B2 m c (Proc.devRef .tc main_arg7) = m ((c : Thread nD τ).loc main_arg7) :=
    (k2 main_arg7 (by decide)).trans (k1 main_arg7 (by decide))
  have b2_v10 : B2 m c (Proc.devRef .tc main_v10) = degNorm (F := Ideal) (m ((c : Thread nD τ).loc main_arg1)) :=
    (k2 main_v10 (by decide)).trans (hostOps0_v10 (B0 m c))
  have b2_v14 : B2 m c (Proc.devRef .tc main_v14) = degNorm (F := Ideal) (m ((c : Thread nD τ).loc main_arg2)) :=
    (k2 main_v14 (by decide)).trans (hostOps0_v14 (B0 m c))
  -- the stretches between the first two regions, and the second region
  have s38 : E5 m c main_v38 = layer1 (F := Ideal)
      (Host.dotGeneral (F := Ideal) (φ₁ := .f32) (φ₂ := .f32)
        Cert.ReferenceIdeal.dot_S16384x512_S512x256_S16384x256_1_0_0_1_n_n none
        (scaledFeatures (F := Ideal) (m ((c : Thread nD τ).loc main_arg0)) (m ((c : Thread nD τ).loc main_arg1)))
        (m ((c : Thread nD τ).loc main_arg3)))
      (m ((c : Thread nD τ).loc main_arg1)) (m ((c : Thread nD τ).loc main_arg2))
      (degNorm (F := Ideal) (m ((c : Thread nD τ).loc main_arg1))) (degNorm (F := Ideal) (m ((c : Thread nD τ).loc main_arg2)))
      (m ((c : Thread nD τ).loc main_arg4)) := by
    refine (hostOps1_v38 (B2 m c)).trans ?_
    rw [p0, b2_a1, b2_a2, b2_v10, b2_v14, b2_a4]
  have s5 : E5 m c main_arg5 = m ((c : Thread nD τ).loc main_arg5) :=
    (k5 main_arg5 (by decide) (by decide) (by decide)).trans b2_a5
  have p1 : B6 m c (Proc.devRef .tc main_v39) = Host.dotGeneral (F := Ideal) (φ₁ := .f32) (φ₂ := .f32)
      Cert.ReferenceIdeal.dot_S16384x256_S256x64_S16384x64_1_0_0_1_n_n none
      (layer1 (F := Ideal)
        (Host.dotGeneral (F := Ideal) (φ₁ := .f32) (φ₂ := .f32)
          Cert.ReferenceIdeal.dot_S16384x512_S512x256_S16384x256_1_0_0_1_n_n none
          (scaledFeatures (F := Ideal) (m ((c : Thread nD τ).loc main_arg0)) (m ((c : Thread nD τ).loc main_arg1)))
          (m ((c : Thread nD τ).loc main_arg3)))
        (m ((c : Thread nD τ).loc main_arg1)) (m ((c : Thread nD τ).loc main_arg2))
        (degNorm (F := Ideal) (m ((c : Thread nD τ).loc main_arg1))) (degNorm (F := Ideal) (m ((c : Thread nD τ).loc main_arg2)))
        (m ((c : Thread nD τ).loc main_arg4)))
      (m ((c : Thread nD τ).loc main_arg5)) := by
    refine (B6_arr m c 2).trans ?_
    rw [arr1 (E5 m) c, s38, s5]
  -- what the last stretch reads
  have b6_a1 : B6 m c (Proc.devRef .tc main_arg1) = m ((c : Thread nD τ).loc main_arg1) :=
    ((k6 main_arg1 (by decide)).trans (k5 main_arg1 (by decide) (by decide) (by decide))).trans b2_a1
  have b6_a2 : B6 m c (Proc.devRef .tc main_arg2) = m ((c : Thread nD τ).loc main_arg2) :=
    ((k6 main_arg2 (by decide)).trans (k5 main_arg2 (by decide) (by decide) (by decide))).trans b2_a2
  have b6_a6 : B6 m c (Proc.devRef .tc main_arg6) = m ((c : Thread nD τ).loc main_arg6) :=
    ((k6 main_arg6 (by decide)).trans (k5 main_arg6 (by decide) (by decide) (by decide))).trans b2_a6
  have b6_a7 : B6 m c (Proc.devRef .tc main_arg7) = m ((c : Thread nD τ).loc main_arg7) :=
    ((k6 main_arg7 (by decide)).trans (k5 main_arg7 (by decide) (by decide) (by decide))).trans b2_a7
  have b6_v14 : B6 m c (Proc.devRef .tc main_v14) = degNorm (F := Ideal) (m ((c : Thread nD τ).loc main_arg2)) :=
    ((k6 main_v14 (by decide)).trans (k5 main_v14 (by decide) (by decide) (by decide))).trans b2_v14
  -- the last stretch and the last region
  refine (B8_result m c).trans ?_
  rw [arr2 (E7 m) c]
  have s56 := hostOps2_v56 (B6 m c)
  rw [p1, b6_a1, b6_a2, b6_v14, b6_a6, b6_a7] at s56
  rw [show E7 m c main_v56 = _ from s56]
  rfl

end KernelSide

/-! ## The reference's term as the composition -/

set_option maxHeartbeats 2000000 in
/-- The reference's composed term is that function of its argument arrays. -/
theorem res_eq_composed (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 (F := Ideal) m' c
      = composed
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  unfold Cert.ReferenceIdeal.Value.res_main_v58 composed secondProduct layer2 layer1 scaledFeatures degNorm wrapIds
  rfl

/-! ## The two results are equal -/

/-- From memories that agree on the eight arguments, the kernel's result buffer after its last region is the
    reference's composed term: both are the one composition, of equal arrays. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    B8 (F := Ideal) m c (Proc.devRef .tc main_v57) = Cert.ReferenceIdeal.Value.res_main_v58 (F := Ideal) m' c := by
  obtain ⟨h0, h1, h2, h3, h4, h5, h6, h7⟩ := hagree
  refine (kernel_eq_composed m c).trans (Eq.trans ?_ (res_eq_composed m' c).symm)
  exact (congr (congr (congr (congr (congr (congr (congr (congrArg composed h0) h1) h2) h3) h4) h5) h6) h7).symm

end Cert.KernelIdeal.Hand

end
-- ==== Proof.lean ====
/-
  A two-layer graph convolution followed by an inner-product decoder, on 16384 nodes and 524288 edges: with
  n_src = max(outdeg, 1)^(-1/2) and n_dst = max(indeg, 1)^(-1/2),
      h = relu(n_dst · segsum_dst((x · n_src) W1)[src] + b1),   z = (n_dst · segsum_dst((h · n_src) W2)[src] + b2) · mask,
  and the result is z zᵀ (16384 × 16384). The kernel computes the three matrix products in three Pallas regions — each a
  grid of 2048-row blocks whose body is one product of the loaded blocks into a zero accumulator — and everything else on
  the host; the reference computes the same host operations with whole-array products in place of the regions.

  At the exact instance a change of float format is the identity and a product into a zero accumulator is the plain sum
  of products over the contracted axis, so each region's result array, block by block, IS the whole-array product of the
  arrays the region finds (entry (i, q) of block t depends on row i of the left operand's block t and on column q — for
  the decoder, row q of the second block — only). The host stretches between the regions are the reference's own
  operations, so the two results are one term of the argument arrays; no law of the extended reals is used beyond that,
  and the precondition (finite inputs) is never opened.

  The frames (every weakly fair execution terminates, nothing faults, the arguments end unchanged) are proved for the
  kernel at both instances from one run of @main as eight segments — five host stretches and three regions, each region
  entered by splitting its arrays out of the core's buffers and left by putting them back — and for the reference from
  its run as a sequence of host operations. The idealized kernel is the word-level kernel's own text (no rewrite was
  applied), so the preservation conjunct is trivial.
-/
import proofs.«171155_j1898375544939_1_alg».proof.Defs
import proofs.«171155_j1898375544939_1_alg».proof.Proof.Gen.Kernel
import proofs.«171155_j1898375544939_1_alg».proof.Proof.Gen.KernelIdeal
import proofs.«171155_j1898375544939_1_alg».proof.Proof.Gen.ReferenceIdeal
import proofs.«171155_j1898375544939_1_alg».proof.Proof.Gen.Pre_finite_inputs
import proofs.«171155_j1898375544939_1_alg».proof.Proof.Gen.ReferenceIdeal.Run
import proofs.«171155_j1898375544939_1_alg».proof.Proof.KB.Args
import proofs.«171155_j1898375544939_1_alg».proof.Proof.KI.Args
import proofs.«171155_j1898375544939_1_alg».proof.Proof.KI.Value
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- The idealized kernel runs and leaves its arguments unchanged. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same 16384 × 16384 array: the kernel's result is
    what its decode region leaves, which is the reference's composed term of the arguments. -/
theorem algebraic : Cert.algebraic_KernelIdeal_ReferenceIdeal := by
  intro m ρ m' ρ' _ hagree
  refine ⟨fun c => Cert.KernelIdeal.Hand.B8 (F := Ideal) m c (Proc.devRef .tc Cert.KernelIdeal.main_v57),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.KernelIdeal.Hand.result_eq m m' c (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
